-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64x2 : Shape := ⟨4, ![4, 4096, 64, 2]⟩
abbrev S_ : Shape := ⟨0, ![]⟩

class Facts : Prop where
  bcast_S_S4x4096x64x2 : S_.BroadcastsInDim S4x4096x64x2 (![] : Fin 0 → Fin S4x4096x64x2.rank)
  reducesTo_S4x4096x64x2_S_d0_1_2_3 : S4x4096x64x2.ReducesTo [0, 1, 2, 3] S_
  h_S_ : 0 < S_.numel

variable [Facts]

def fn {F : FTy → Type} [FloatOps F] (main_arg0 : FVec F S4x4096x64x2 .f32) (main_arg1 : FVec F S4x4096x64x2 .f32) (main_arg2 : FVec F S4x4096x64x2 .f32) : IVec S_ 1 :=
  let main_v0 : FVec F S4x4096x64x2 .f32 := Host.absf main_arg0
  let main_cst : FVec F S_ .f32 := constant S_ .f32 0x7F800000#32
  let main_v1 : FVec F S4x4096x64x2 .f32 := broadcastInDim S4x4096x64x2 ![] bcast_S_S4x4096x64x2 main_cst
  let main_v2 : IVec S4x4096x64x2 1 := cmpf .olt main_v0 main_v1
  let main_c : IVec S_ 1 := constantI S_ 1 1#1
  let main_v3 : IVec S_ 1 := (fun x v => Host.reduce IntOp.andi x v reducesTo_S4x4096x64x2_S_d0_1_2_3 h_S_) main_v2 main_c
  let main_v4 : FVec F S4x4096x64x2 .f32 := Host.absf main_arg1
  let main_cst_0 : FVec F S_ .f32 := constant S_ .f32 0x7F800000#32
  let main_v5 : FVec F S4x4096x64x2 .f32 := broadcastInDim S4x4096x64x2 ![] bcast_S_S4x4096x64x2 main_cst_0
  let main_v6 : IVec S4x4096x64x2 1 := cmpf .olt main_v4 main_v5
  let main_c_1 : IVec S_ 1 := constantI S_ 1 1#1
  let main_v7 : IVec S_ 1 := (fun x v => Host.reduce IntOp.andi x v reducesTo_S4x4096x64x2_S_d0_1_2_3 h_S_) main_v6 main_c_1
  let main_v8 : IVec S_ 1 := andi main_v3 main_v7
  let main_v9 : FVec F S4x4096x64x2 .f32 := Host.absf main_arg2
  let main_cst_2 : FVec F S_ .f32 := constant S_ .f32 0x7F800000#32
  let main_v10 : FVec F S4x4096x64x2 .f32 := broadcastInDim S4x4096x64x2 ![] bcast_S_S4x4096x64x2 main_cst_2
  let main_v11 : IVec S4x4096x64x2 1 := cmpf .olt main_v9 main_v10
  let main_c_3 : IVec S_ 1 := constantI S_ 1 1#1
  let main_v12 : IVec S_ 1 := (fun x v => Host.reduce IntOp.andi x v reducesTo_S4x4096x64x2_S_d0_1_2_3 h_S_) main_v11 main_c_3
  let main_v13 : IVec S_ 1 := andi main_v8 main_v12
  main_v13
-- ==== Kernel.lean ====
abbrev S4x4096x64x2 : Shape := ⟨4, ![4, 4096, 64, 2]⟩
abbrev S4x4096x64x1 : Shape := ⟨4, ![4, 4096, 64, 1]⟩
abbrev S4x4096x64 : Shape := ⟨3, ![4, 4096, 64]⟩
abbrev S1x256x64 : Shape := ⟨3, ![1, 256, 64]⟩
abbrev S1x4096x64 : Shape := ⟨3, ![1, 4096, 64]⟩
abbrev S256x64 : Shape := ⟨2, ![256, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩

abbrev nBuf : Space → Nat
  | .hbm => 20
  | .vmem => 16
  | .smem => 0
  | _ => 0

abbrev bufTy : (tb : Table) → Fin (tcTables nBuf tb) → BufTy
  | .hbm, ⟨0, _⟩ => ⟨S4x4096x64x2, .f32⟩
  | .hbm, ⟨1, _⟩ => ⟨S4x4096x64x2, .f32⟩
  | .hbm, ⟨2, _⟩ => ⟨S4x4096x64x2, .f32⟩
  | .hbm, ⟨3, _⟩ => ⟨S4x4096x64x1, .f32⟩
  | .hbm, ⟨4, _⟩ => ⟨S4x4096x64, .f32⟩
  | .hbm, ⟨5, _⟩ => ⟨S4x4096x64x1, .f32⟩
  | .hbm, ⟨6, _⟩ => ⟨S4x4096x64, .f32⟩
  | .hbm, ⟨7, _⟩ => ⟨S4x4096x64x1, .f32⟩
  | .hbm, ⟨8, _⟩ => ⟨S4x4096x64, .f32⟩
  | .hbm, ⟨9, _⟩ => ⟨S4x4096x64x1, .f32⟩
  | .hbm, ⟨10, _⟩ => ⟨S4x4096x64, .f32⟩
  | .hbm, ⟨11, _⟩ => ⟨S4x4096x64x1, .f32⟩
  | .hbm, ⟨12, _⟩ => ⟨S4x4096x64, .f32⟩
  | .hbm, ⟨13, _⟩ => ⟨S4x4096x64x1, .f32⟩
  | .hbm, ⟨14, _⟩ => ⟨S4x4096x64, .f32⟩
  | .hbm, ⟨15, _⟩ => ⟨S4x4096x64, .f32⟩
  | .hbm, ⟨16, _⟩ => ⟨S4x4096x64, .f32⟩
  | .hbm, ⟨17, _⟩ => ⟨S4x4096x64x1, .f32⟩
  | .hbm, ⟨18, _⟩ => ⟨S4x4096x64x1, .f32⟩
  | .hbm, ⟨19, _⟩ => ⟨S4x4096x64x2, .f32⟩
  | .local _ .vmem, ⟨0, _⟩ => ⟨S1x256x64, .f32⟩
  | .local _ .vmem, ⟨1, _⟩ => ⟨S1x256x64, .f32⟩
  | .local _ .vmem, ⟨2, _⟩ => ⟨S1x256x64, .f32⟩
  | .local _ .vmem, ⟨3, _⟩ => ⟨S1x256x64, .f32⟩
  | .local _ .vmem, ⟨4, _⟩ => ⟨S1x4096x64, .f32⟩
  | .local _ .vmem, ⟨5, _⟩ => ⟨S1x4096x64, .f32⟩
  | .local _ .vmem, ⟨6, _⟩ => ⟨S1x4096x64, .f32⟩
  | .local _ .vmem, ⟨7, _⟩ => ⟨S1x4096x64, .f32⟩
  | .local _ .vmem, ⟨8, _⟩ => ⟨S1x4096x64, .f32⟩
  | .local _ .vmem, ⟨9, _⟩ => ⟨S1x4096x64, .f32⟩
  | .local _ .vmem, ⟨10, _⟩ => ⟨S1x4096x64, .f32⟩
  | .local _ .vmem, ⟨11, _⟩ => ⟨S1x4096x64, .f32⟩
  | .local _ .vmem, ⟨12, _⟩ => ⟨S1x256x64, .f32⟩
  | .local _ .vmem, ⟨13, _⟩ => ⟨S1x256x64, .f32⟩
  | .local _ .vmem, ⟨14, _⟩ => ⟨S1x256x64, .f32⟩
  | .local _ .vmem, ⟨15, _⟩ => ⟨S1x256x64, .f32⟩
  | _, _ => ⟨S4x4096x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S4x4096x64x2_S4x4096x64x1_0_0_0_0 : S4x4096x64x2.Slices ![0, 0, 0, 0] S4x4096x64x1
  shapeCasts_S4x4096x64x1_S4x4096x64 : S4x4096x64x1.ShapeCasts S4x4096x64
  slices_S4x4096x64x2_S4x4096x64x1_0_0_0_1 : S4x4096x64x2.Slices ![0, 0, 0, 1] S4x4096x64x1
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S256x4096_S256 : S256x4096.Reduces [1] S256
  shapeCasts_S256_S256x1 : S256.ShapeCasts S256x1
  broadcasts_S256x1_S256x4096 : S256x1.Broadcasts S256x4096
  shapeCasts_S256x64_S1x256x64 : S256x64.ShapeCasts S1x256x64
  bcast_S4x4096x64_S4x4096x64x1_0_1_2 : S4x4096x64.BroadcastsInDim S4x4096x64x1 (![0, 1, 2] : Fin 3 → Fin S4x4096x64x1.rank)
  concatenates_S4x4096x64x1_S4x4096x64x1_S4x4096x64x2_d3 : Shape.Concatenates [S4x4096x64x1, S4x4096x64x1] S4x4096x64x2 3
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S4x4096x64.size a
  hwx0_0 : ∀ i : grid0.Coords, EltTy.bits .f32 = 32 ∨ (Rect.block (s := S4x4096x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S4x4096x64.size a
  hwx0_1 : ∀ i : grid0.Coords, EltTy.bits .f32 = 32 ∨ (Rect.block (s := S4x4096x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S4x4096x64.size a
  hwx0_2 : ∀ i : grid0.Coords, EltTy.bits .f32 = 32 ∨ (Rect.block (s := S4x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x64.size a ≤ S4x4096x64.size a
  hwx0_3 : ∀ i : grid0.Coords, EltTy.bits .f32 = 32 ∨ (Rect.block (s := S4x4096x64) S1x4096x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x64.size a ≤ S4x4096x64.size a
  hwx0_4 : ∀ i : grid0.Coords, EltTy.bits .f32 = 32 ∨ (Rect.block (s := S4x4096x64) S1x4096x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x64.size a ≤ S4x4096x64.size a
  hwx0_5 : ∀ i : grid0.Coords, EltTy.bits .f32 = 32 ∨ (Rect.block (s := S4x4096x64) S1x4096x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x64.size a ≤ S4x4096x64.size a
  hwx0_6 : ∀ i : grid0.Coords, EltTy.bits .f32 = 32 ∨ (Rect.block (s := S4x4096x64) S1x256x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x64.size a ≤ S4x4096x64.size a
  hwx0_7 : ∀ i : grid0.Coords, EltTy.bits .f32 = 32 ∨ (Rect.block (s := S4x4096x64) S1x256x64.size (cc0_transform_7 i) (hinb0_7 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_v1) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x4096x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x4096x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x4096x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S1x256x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S1x256x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x64x2 : Shape := ⟨4, ![4, 4096, 64, 2]⟩
abbrev S_ : Shape := ⟨0, ![]⟩
abbrev S4x4096x64x1 : Shape := ⟨4, ![4, 4096, 64, 1]⟩
abbrev S4x4096x64 : Shape := ⟨3, ![4, 4096, 64]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x64x2, .f32⟩
  | .hbm, ⟨1, _⟩ => ⟨S4x4096x64x2, .f32⟩
  | .hbm, ⟨2, _⟩ => ⟨S4x4096x64x2, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x4096x64x1, .f32⟩
  | .hbm, ⟨8, _⟩ => ⟨S4x4096x64, .f32⟩
  | .hbm, ⟨9, _⟩ => ⟨S4x4096x64x1, .f32⟩
  | .hbm, ⟨10, _⟩ => ⟨S4x4096x64, .f32⟩
  | .hbm, ⟨11, _⟩ => ⟨S4x4096x64x1, .f32⟩
  | .hbm, ⟨12, _⟩ => ⟨S4x4096x64, .f32⟩
  | .hbm, ⟨13, _⟩ => ⟨S4x4096x64x1, .f32⟩
  | .hbm, ⟨14, _⟩ => ⟨S4x4096x64, .f32⟩
  | .hbm, ⟨15, _⟩ => ⟨S4x4096x64x1, .f32⟩
  | .hbm, ⟨16, _⟩ => ⟨S4x4096x64, .f32⟩
  | .hbm, ⟨17, _⟩ => ⟨S4x4096x64x1, .f32⟩
  | .hbm, ⟨18, _⟩ => ⟨S4x4096x64, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x4096, .f32⟩
  | .hbm, ⟨42, _⟩ => ⟨S4x4096x4096, .f32⟩
  | .hbm, ⟨43, _⟩ => ⟨S_, .f32⟩
  | .hbm, ⟨44, _⟩ => ⟨S4x4096, .f32⟩
  | .hbm, ⟨45, _⟩ => ⟨S_, .f32⟩
  | .hbm, ⟨46, _⟩ => ⟨S4x4096, .f32⟩
  | .hbm, ⟨47, _⟩ => ⟨S4x4096, .f32⟩
  | .hbm, ⟨48, _⟩ => ⟨S4x4096x1, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S4x4096x4096, .f32⟩
  | .hbm, ⟨56, _⟩ => ⟨S4x4096x4096, .f32⟩
  | .hbm, ⟨57, _⟩ => ⟨S4x4096x64, .f32⟩
  | .hbm, ⟨58, _⟩ => ⟨S4x4096x64, .f32⟩
  | .hbm, ⟨59, _⟩ => ⟨S4x4096x64, .f32⟩
  | .hbm, ⟨60, _⟩ => ⟨S4x4096x64, .f32⟩
  | .hbm, ⟨61, _⟩ => ⟨S4x4096x64, .f32⟩
  | .hbm, ⟨62, _⟩ => ⟨S4x4096x64, .f32⟩
  | .hbm, ⟨63, _⟩ => ⟨S4x4096x64x1, .f32⟩
  | .hbm, ⟨64, _⟩ => ⟨S4x4096x64x1, .f32⟩
  | .hbm, ⟨65, _⟩ => ⟨S4x4096x64x2, .f32⟩
  | _, _ => ⟨S4x4096x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩

abbrev nD : Nat := 1
abbrev τ : Topo := Topo.v7x

variable {F : FTy → Type} [FloatOps F]

class Facts₀ : Prop where
  slices_S4x4096x64x2_S4x4096x64x1_0_0_0_0 : S4x4096x64x2.Slices ![0, 0, 0, 0] S4x4096x64x1
  shapeCasts_S4x4096x64x1_S4x4096x64 : S4x4096x64x1.ShapeCasts S4x4096x64
  slices_S4x4096x64x2_S4x4096x64x1_0_0_0_1 : S4x4096x64x2.Slices ![0, 0, 0, 1] S4x4096x64x1
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x4096x64_S4x4096x64x1_0_1_2 : S4x4096x64.BroadcastsInDim S4x4096x64x1 (![0, 1, 2] : Fin 3 → Fin S4x4096x64x1.rank)
  concatenates_S4x4096x64x1_S4x4096x64x1_S4x4096x64x2_d3 : Shape.Concatenates [S4x4096x64x1, S4x4096x64x1] S4x4096x64x2 3
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.AttentionSpec.lean ====
/-
  Complex dot-product attention on the extended reals, one query row at a time.

  A query row is a pair of vectors (real and imaginary parts) of length 64; the keys and the values of its batch
  are two pairs of 4096 × 64 matrices. The complex scores q · conj-free kᵀ are split into their real part
  (qr·kr − qi·ki) and imaginary part (qr·ki + qi·kr), each scaled by 1/8; each part is passed through its own
  max-subtracting softmax over the 4096 keys; the two weight rows are then combined with the values as a complex
  product again: real part ar·vr − ai·vi, imaginary part ar·vi + ai·vr.

  Nothing here needs finiteness: the functions are the extended reals' own sums, products, maxima, exponential
  and quotient, so a statement "two programs compute this function" is an identity of terms.
-/
import Idealize.ShloMosaic.PureOps.Ideal
import Idealize.ShloMosaic.Lib.ValueIdx

noncomputable section

open scoped BigOperators

namespace Cert.ComplexAttention

open Idealize.ShloMosaic Idealize.ShloMosaic.ValueIdx

/-- The score scale 1/8 = 1/√64, as the f32 pattern of 0.125. -/
abbrev scale : EReal := Ideal.ofBits .f32 0x3E000000#32

/-- −∞ as its f32 pattern: what both row maxima start from. -/
abbrev negInf : EReal := Ideal.ofBits .f32 0xFF800000#32

/-- The maximum of a row of 4096 scores (started from −∞, and once more compared with −∞). -/
def rowMax (s : Fin 4096 → EReal) : EReal :=
  max negInf ((Finset.univ : Finset (Fin 4096)).fold max negInf s)

/-- The exponential of a score less its row's maximum. -/
def rowExp (s : Fin 4096 → EReal) (k : Fin 4096) : EReal := Ideal.exp (s k - rowMax s)

/-- The softmax weight of key `k` in a row of scores. -/
def rowSoftmax (s : Fin 4096 → EReal) (k : Fin 4096) : EReal :=
  Ideal.div (rowExp s k) (∑ k' : Fin 4096, rowExp s k')

/-- Real part of the scaled complex score of a query row against key `k`. -/
def scoreRe (ar ai : Fin 64 → EReal) (Kr Ki : Fin 4096 → Fin 64 → EReal) (k : Fin 4096) : EReal :=
  ((∑ e : Fin 64, ar e * Kr k e) - (∑ e : Fin 64, ai e * Ki k e)) * scale

/-- Imaginary part of the scaled complex score of a query row against key `k`. -/
def scoreIm (ar ai : Fin 64 → EReal) (Kr Ki : Fin 4096 → Fin 64 → EReal) (k : Fin 4096) : EReal :=
  ((∑ e : Fin 64, ar e * Ki k e) + (∑ e : Fin 64, ai e * Kr k e)) * scale

/-- Real part of the attention output of a query row at feature `d`. -/
def outRe (ar ai : Fin 64 → EReal) (Kr Ki Vr Vi : Fin 4096 → Fin 64 → EReal) (d : Fin 64) : EReal :=
  (∑ k : Fin 4096, rowSoftmax (scoreRe ar ai Kr Ki) k * Vr k d)
    - (∑ k : Fin 4096, rowSoftmax (scoreIm ar ai Kr Ki) k * Vi k d)

/-- Imaginary part of the attention output of a query row at feature `d`. -/
def outIm (ar ai : Fin 64 → EReal) (Kr Ki Vr Vi : Fin 4096 → Fin 64 → EReal) (d : Fin 64) : EReal :=
  (∑ k : Fin 4096, rowSoftmax (scoreRe ar ai Kr Ki) k * Vi k d)
    + (∑ k : Fin 4096, rowSoftmax (scoreIm ar ai Kr Ki) k * Vr k d)

/-- The six planes (real and imaginary parts of queries, keys, values) and both outputs have this shape:
    batch × sequence × feature. -/
abbrev SPlane : Shape := ⟨3, ![4, 4096, 64]⟩

/-- Real part of the attention output at batch `b`, query position `q`, feature `d`, from the six planes:
    the query row is row `q` of batch `b`, the keys and values are all 4096 rows of that batch. -/
def attnReAt (qr qi kr ki vr vi : SPlane.Idx → EReal) (b : Fin 4) (q : Fin 4096) (d : Fin 64) : EReal :=
  outRe (fun e => qr (ix3 b q e)) (fun e => qi (ix3 b q e))
    (fun k e => kr (ix3 b k e)) (fun k e => ki (ix3 b k e))
    (fun k e => vr (ix3 b k e)) (fun k e => vi (ix3 b k e)) d

/-- Imaginary part likewise. -/
def attnImAt (qr qi kr ki vr vi : SPlane.Idx → EReal) (b : Fin 4) (q : Fin 4096) (d : Fin 64) : EReal :=
  outIm (fun e => qr (ix3 b q e)) (fun e => qi (ix3 b q e))
    (fun k e => kr (ix3 b k e)) (fun k e => ki (ix3 b k e))
    (fun k e => vr (ix3 b k e)) (fun k e => vi (ix3 b k e)) d

/-- The real output plane as one function of the six input planes. -/
def attnRe (qr qi kr ki vr vi : SPlane.Idx → EReal) : SPlane.Idx → EReal :=
  fun i => attnReAt qr qi kr ki vr vi (i 0) (i 1) (i 2)

/-- The imaginary output plane as one function of the six input planes. -/
def attnIm (qr qi kr ki vr vi : SPlane.Idx → EReal) : SPlane.Idx → EReal :=
  fun i => attnImAt qr qi kr ki vr vi (i 0) (i 1) (i 2)

theorem attnRe_ix3 (qr qi kr ki vr vi : SPlane.Idx → EReal) (b : Fin 4) (q : Fin 4096) (d : Fin 64) :
    attnRe qr qi kr ki vr vi (ix3 b q d) = attnReAt qr qi kr ki vr vi b q d := rfl

theorem attnIm_ix3 (qr qi kr ki vr vi : SPlane.Idx → EReal) (b : Fin 4) (q : Fin 4096) (d : Fin 64) :
    attnIm qr qi kr ki vr vi (ix3 b q d) = attnImAt qr qi kr ki vr vi b q d := rfl

/-! ## The scale, as the reference spells it -/

/-- The pattern of 1.0 denotes 1. -/
theorem ofBits_one : Ideal.ofBits .f32 0x3F800000#32 = ((1 : ℝ) : EReal) := by
  simp [Ideal.ofBits, Ideal.ieee, -EReal.coe_mul]; norm_num

/-- The pattern of 64.0 denotes 64. -/
theorem ofBits_64 : Ideal.ofBits .f32 0x42800000#32 = ((64 : ℝ) : EReal) := by
  simp [Ideal.ofBits, Ideal.ieee, -EReal.coe_mul]; norm_num

/-- The pattern of 0.125 denotes 1/8. -/
theorem ofBits_eighth : Ideal.ofBits .f32 0x3E000000#32 = ((1 / 8 : ℝ) : EReal) := by
  simp [Ideal.ofBits, Ideal.ieee, -EReal.coe_mul]; norm_num

/-- 64 is the square of 8, so its root is 8. -/
theorem sqrt_64 : Real.sqrt 64 = 8 := by
  rw [show (64 : ℝ) = 8 ^ 2 by norm_num]
  exact Real.sqrt_sq (by norm_num)

/-- The reference's scale, 1 divided by the square root of 64, is the kernel's literal 0.125: on the extended reals
    the root of 64 is exactly 8 and the quotient of 1 by 8 is exactly 1/8. -/
theorem one_div_sqrt_64 :
    Ideal.div (Ideal.ofBits .f32 0x3F800000#32) (Ideal.sqrt (Ideal.ofBits .f32 0x42800000#32)) = scale := by
  show _ = Ideal.ofBits .f32 0x3E000000#32
  rw [ofBits_one, ofBits_64, Ideal.sqrt_coe, if_neg (by norm_num), sqrt_64,
    Ideal.div_coe (by norm_num : (8 : ℝ) ≠ 0), ofBits_eighth, ← EReal.coe_mul, one_mul]

end Cert.ComplexAttention

end
-- ==== Proof.AttentionLayout.lean ====
/-
  The packing of complex arrays: a complex array of shape batch × sequence × feature is stored as a real array with a
  trailing axis of extent 2 (real part at 0, imaginary part at 1). `planeRe` / `planeIm` take the two parts out
  (a unit-width slice of the last axis, then the unit axis dropped); `joinPlanes` puts two planes back together
  (each given a trailing unit axis, then the two joined along it).
-/
import Idealize.ShloMosaic.PureOps
import proofs.«162952_j27736898798432_1_alg».proof.Proof.AttentionSpec

noncomputable section

namespace Cert.ComplexAttention

open Idealize.ShloMosaic

/-- A packed complex array: batch × sequence × feature × (real, imaginary). -/
abbrev SPacked : Shape := ⟨4, ![4, 4096, 64, 2]⟩
/-- One part of it, still with the trailing axis (of extent 1). -/
abbrev SPart : Shape := ⟨4, ![4, 4096, 64, 1]⟩

theorem slices_re : SPacked.Slices ![0, 0, 0, 0] SPart := by decide
theorem slices_im : SPacked.Slices ![0, 0, 0, 1] SPart := by decide
theorem part_casts_plane : SPart.ShapeCasts SPlane := by decide
theorem plane_bcasts_part : SPlane.BroadcastsInDim SPart (![0, 1, 2] : Fin 3 → Fin SPart.rank) := by decide
theorem parts_concat : Shape.Concatenates [SPart, SPart] SPacked 3 := by decide

/-- The real parts of a packed complex array, as a plane. -/
def planeRe (x : FVec Ideal SPacked .f32) : FVec Ideal SPlane .f32 :=
  shapeCast SPlane (extractStridedSlice SPart ![0, 0, 0, 0] x slices_re) part_casts_plane

/-- The imaginary parts of a packed complex array, as a plane. -/
def planeIm (x : FVec Ideal SPacked .f32) : FVec Ideal SPlane .f32 :=
  shapeCast SPlane (extractStridedSlice SPart ![0, 0, 0, 1] x slices_im) part_casts_plane

/-- Two planes packed as one complex array: real parts from `a`, imaginary parts from `b`. -/
def joinPlanes (a b : FVec Ideal SPlane .f32) : FVec Ideal SPacked .f32 :=
  concatenate SPacked 3
    [⟨SPart, broadcastInDim SPart ![0, 1, 2] plane_bcasts_part a⟩, ⟨SPart, broadcastInDim SPart ![0, 1, 2] plane_bcasts_part b⟩]
    parts_concat

/-- Complex attention on packed arrays: queries, keys and values in, the packed output out. -/
def attention (q k v : FVec Ideal SPacked .f32) : FVec Ideal SPacked .f32 :=
  joinPlanes
    (attnRe (planeRe q) (planeIm q) (planeRe k) (planeIm k) (planeRe v) (planeIm v))
    (attnIm (planeRe q) (planeIm q) (planeRe k) (planeIm k) (planeRe v) (planeIm v))

end Cert.ComplexAttention

end
-- ==== Proof.KernelRow.lean ====
/-
  One grid point's arithmetic, read at one element, on the extended reals.

  A grid point holds 256 query rows (real and imaginary parts) and all 4096 keys and values of their batch. Its two
  score blocks are the real and imaginary parts of q · kᵀ scaled by 1/8, each a difference or sum of two contractions
  over the 64 features; each block's rows are passed through a max-subtracting softmax over the 4096 keys (the row
  maximum started from −∞ and compared once more with −∞, the exponentials summed along the row, the quotient taken);
  the two weight blocks are contracted with the two value blocks over the 4096 keys and combined as a complex product.

  Every operation is read at an index: a contraction into the zero block is the plain sum of products over the
  contracted axis, a sum along the key axis is the sum over the 4096 keys, a maximum along it the fold of `max` from
  −∞, and the changes of format are the identity. Read so, the two stored blocks at row `p` and feature `d` are, term
  for term, the real and imaginary parts of the attention output of query row `p` (`outRe`, `outIm`).
-/
import proofs.«162952_j27736898798432_1_alg».proof.Proof.Gen.KernelIdeal.Skeleton
import proofs.«162952_j27736898798432_1_alg».proof.Proof.AttentionSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.AttnRow

open Cert.KernelIdeal Cert.KernelIdeal.Gen Cert.ComplexAttention Idealize.ShloMosaic Idealize.ShloMosaic.ValueIdx

/-! ## The six input blocks with their unit batch axis dropped -/

/-- A query block with its unit batch axis dropped reads, at row `p` and feature `e`, the block at `(0, p, e)`
    (the change of format is the identity on the extended reals). -/
theorem dropQ_apply (x : Vec Ideal S1x256x64 .f32) (p : Fin 256) (e : Fin 64) :
    k0_pay5 (F := Ideal) x (ix2 p e) = x (ix3 (0 : Fin 1) p e) :=
  shapeCast_1ab_ab_apply x Facts₀.shapeCasts_S1x256x64_S256x64 p e

theorem dropQ'_apply (x : Vec Ideal S1x256x64 .f32) (p : Fin 256) (e : Fin 64) :
    k0_pay6 (F := Ideal) x (ix2 p e) = x (ix3 (0 : Fin 1) p e) :=
  shapeCast_1ab_ab_apply x Facts₀.shapeCasts_S1x256x64_S256x64 p e

/-- A key or value block likewise, at key `k` and feature `e`. -/
theorem dropK7_apply (x : Vec Ideal S1x4096x64 .f32) (k : Fin 4096) (e : Fin 64) :
    k0_pay7 (F := Ideal) x (ix2 k e) = x (ix3 (0 : Fin 1) k e) :=
  shapeCast_1ab_ab_apply x Facts₀.shapeCasts_S1x4096x64_S4096x64 k e

theorem dropK8_apply (x : Vec Ideal S1x4096x64 .f32) (k : Fin 4096) (e : Fin 64) :
    k0_pay8 (F := Ideal) x (ix2 k e) = x (ix3 (0 : Fin 1) k e) :=
  shapeCast_1ab_ab_apply x Facts₀.shapeCasts_S1x4096x64_S4096x64 k e

theorem dropK9_apply (x : Vec Ideal S1x4096x64 .f32) (k : Fin 4096) (e : Fin 64) :
    k0_pay9 (F := Ideal) x (ix2 k e) = x (ix3 (0 : Fin 1) k e) :=
  shapeCast_1ab_ab_apply x Facts₀.shapeCasts_S1x4096x64_S4096x64 k e

theorem dropK10_apply (x : Vec Ideal S1x4096x64 .f32) (k : Fin 4096) (e : Fin 64) :
    k0_pay10 (F := Ideal) x (ix2 k e) = x (ix3 (0 : Fin 1) k e) :=
  shapeCast_1ab_ab_apply x Facts₀.shapeCasts_S1x4096x64_S4096x64 k e

/-! ## The two contractions read at an element -/

section Contractions

private abbrev Dqk := dot_S256x64_S4096x64_S256x4096_1_1_0_0_n_n
private abbrev Dwv := dot_S256x4096_S4096x64_S256x64_1_0_0_1_n_n

theorem qk_lhs_0 (i : S256x4096.Idx) (q : Dqk.contr.Idx) : (Dqk.lhsIdx i q 0).val = (i 0).val := by
  unfold DotDims.lhsIdx
  rw [dif_neg (show ¬(0 : Fin S256x64.rank) ∈ Dqk.lhsBatch by decide),
    dif_pos (show (0 : Fin S256x64.rank) ∈ Dqk.lhsNonContracting by decide)]
  rfl
theorem qk_lhs_1 (i : S256x4096.Idx) (q : Dqk.contr.Idx) : (Dqk.lhsIdx i q 1).val = (q ⟨0, by decide⟩).val :=
  Dqk.lhsIdx_val_of_single rfl i q
theorem qk_rhs_0 (i : S256x4096.Idx) (q : Dqk.contr.Idx) : (Dqk.rhsIdx i q 0).val = (i 1).val := by
  unfold DotDims.rhsIdx
  rw [dif_neg (show ¬(0 : Fin S4096x64.rank) ∈ Dqk.rhsBatch by decide),
    dif_pos (show (0 : Fin S4096x64.rank) ∈ Dqk.rhsNonContracting by decide)]
  rfl
theorem qk_rhs_1 (i : S256x4096.Idx) (q : Dqk.contr.Idx) : (Dqk.rhsIdx i q 1).val = (q ⟨0, by decide⟩).val :=
  Dqk.rhsIdx_val_of_single rfl i q

/-- Query rows against key rows, both contracted along the feature axis, into the zero block: at row `p` and key `k`
    the sum over the 64 features of the products. -/
theorem qk_apply (a : FVec Ideal S256x64 .bf16) (b : FVec Ideal S4096x64 .bf16) (p : Fin 256) (k : Fin 4096) :
    matmul dot_S256x64_S4096x64_S256x4096_1_1_0_0_n_n none a b (constant S256x4096 .f32 0x00000000#32) (ix2 p k)
      = ∑ e : Fin 64, a (ix2 p e) * b (ix2 k e) := by
  refine (Ideal.matmul_constant_zero_apply Dqk none a b (ix2 p k)).trans ?_
  rw [← Equiv.sum_comp (contrEquiv1 Dqk 64 rfl rfl).symm]
  refine Finset.sum_congr rfl fun e _ => ?_
  have he := contrEquiv1_symm_val Dqk 64 rfl rfl e
  have el : Dqk.lhsIdx (ix2 p k) ((contrEquiv1 Dqk 64 rfl rfl).symm e) = ix2 p e :=
    funext fun c => Fin.ext (by
      match c with
      | ⟨0, _⟩ => exact qk_lhs_0 _ _
      | ⟨1, _⟩ => exact (qk_lhs_1 _ _).trans he)
  have er : Dqk.rhsIdx (ix2 p k) ((contrEquiv1 Dqk 64 rfl rfl).symm e) = ix2 k e :=
    funext fun c => Fin.ext (by
      match c with
      | ⟨0, _⟩ => exact qk_rhs_0 _ _
      | ⟨1, _⟩ => exact (qk_rhs_1 _ _).trans he)
  rw [el, er]

theorem wv_lhs_0 (i : S256x64.Idx) (q : Dwv.contr.Idx) : (Dwv.lhsIdx i q 0).val = (i 0).val := by
  unfold DotDims.lhsIdx
  rw [dif_neg (show ¬(0 : Fin S256x4096.rank) ∈ Dwv.lhsBatch by decide),
    dif_pos (show (0 : Fin S256x4096.rank) ∈ Dwv.lhsNonContracting by decide)]
  rfl
theorem wv_lhs_1 (i : S256x64.Idx) (q : Dwv.contr.Idx) : (Dwv.lhsIdx i q 1).val = (q ⟨0, by decide⟩).val :=
  Dwv.lhsIdx_val_of_single rfl i q
theorem wv_rhs_0 (i : S256x64.Idx) (q : Dwv.contr.Idx) : (Dwv.rhsIdx i q 0).val = (q ⟨0, by decide⟩).val :=
  Dwv.rhsIdx_val_of_single rfl i q
theorem wv_rhs_1 (i : S256x64.Idx) (q : Dwv.contr.Idx) : (Dwv.rhsIdx i q 1).val = (i 1).val := by
  unfold DotDims.rhsIdx
  rw [dif_neg (show ¬(1 : Fin S4096x64.rank) ∈ Dwv.rhsBatch by decide),
    dif_pos (show (1 : Fin S4096x64.rank) ∈ Dwv.rhsNonContracting by decide)]
  rfl

/-- Weight rows against the value block, contracted along the key axis, into the zero block: at row `p` and feature
    `d` the sum over the 4096 keys of the products. -/
theorem wv_apply (w : FVec Ideal S256x4096 .bf16) (v : FVec Ideal S4096x64 .bf16) (p : Fin 256) (d : Fin 64) :
    matmul dot_S256x4096_S4096x64_S256x64_1_0_0_1_n_n none w v (constant S256x64 .f32 0x00000000#32) (ix2 p d)
      = ∑ k : Fin 4096, w (ix2 p k) * v (ix2 k d) := by
  refine (Ideal.matmul_constant_zero_apply Dwv none w v (ix2 p d)).trans ?_
  rw [← Equiv.sum_comp (contrEquiv1 Dwv 4096 rfl rfl).symm]
  refine Finset.sum_congr rfl fun k _ => ?_
  have hk := contrEquiv1_symm_val Dwv 4096 rfl rfl k
  have el : Dwv.lhsIdx (ix2 p d) ((contrEquiv1 Dwv 4096 rfl rfl).symm k) = ix2 p k :=
    funext fun c => Fin.ext (by
      match c with
      | ⟨0, _⟩ => exact wv_lhs_0 _ _
      | ⟨1, _⟩ => exact (wv_lhs_1 _ _).trans hk)
  have er : Dwv.rhsIdx (ix2 p d) ((contrEquiv1 Dwv 4096 rfl rfl).symm k) = ix2 k d :=
    funext fun c => Fin.ext (by
      match c with
      | ⟨0, _⟩ => exact (wv_rhs_0 _ _).trans hk
      | ⟨1, _⟩ => exact wv_rhs_1 _ _)
  rw [el, er]

end Contractions

/-! ## The two score blocks -/

/-- The scaled real score block at row `p` and key `k` is the real score of query row `p` against key `k`. -/
theorem scoreRe_apply (x0 x1 : Vec Ideal S1x256x64 .f32) (x2 x3 : Vec Ideal S1x4096x64 .f32) (p : Fin 256) (k : Fin 4096) :
    k0_pay11 (F := Ideal) x0 x1 x2 x3 (ix2 p k)
      = scoreRe (fun e => x0 (ix3 (0 : Fin 1) p e)) (fun e => x1 (ix3 (0 : Fin 1) p e))
          (fun k e => x2 (ix3 (0 : Fin 1) k e)) (fun k e => x3 (ix3 (0 : Fin 1) k e)) k := by
  unfold scoreRe
  show (matmul dot_S256x64_S4096x64_S256x4096_1_1_0_0_n_n none (k0_pay5 x0) (k0_pay7 x2) (constant S256x4096 .f32 0x00000000#32) (ix2 p k)
        - matmul dot_S256x64_S4096x64_S256x4096_1_1_0_0_n_n none (k0_pay6 x1) (k0_pay8 x3) (constant S256x4096 .f32 0x00000000#32) (ix2 p k))
      * scale = _
  refine congrArg (· * scale) (congrArg₂ (· - ·) ?_ ?_)
  · refine (qk_apply (k0_pay5 x0) (k0_pay7 x2) p k).trans (Finset.sum_congr rfl fun e _ => ?_)
    rw [dropQ_apply, dropK7_apply]
  · refine (qk_apply (k0_pay6 x1) (k0_pay8 x3) p k).trans (Finset.sum_congr rfl fun e _ => ?_)
    rw [dropQ'_apply, dropK8_apply]

/-- The scaled imaginary score block likewise. -/
theorem scoreIm_apply (x0 x1 : Vec Ideal S1x256x64 .f32) (x2 x3 : Vec Ideal S1x4096x64 .f32) (p : Fin 256) (k : Fin 4096) :
    k0_pay12 (F := Ideal) x0 x1 x2 x3 (ix2 p k)
      = scoreIm (fun e => x0 (ix3 (0 : Fin 1) p e)) (fun e => x1 (ix3 (0 : Fin 1) p e))
          (fun k e => x2 (ix3 (0 : Fin 1) k e)) (fun k e => x3 (ix3 (0 : Fin 1) k e)) k := by
  unfold scoreIm
  show (matmul dot_S256x64_S4096x64_S256x4096_1_1_0_0_n_n none (k0_pay5 x0) (k0_pay8 x3) (constant S256x4096 .f32 0x00000000#32) (ix2 p k)
        + matmul dot_S256x64_S4096x64_S256x4096_1_1_0_0_n_n none (k0_pay6 x1) (k0_pay7 x2) (constant S256x4096 .f32 0x00000000#32) (ix2 p k))
      * scale = _
  refine congrArg (· * scale) (congrArg₂ (· + ·) ?_ ?_)
  · refine (qk_apply (k0_pay5 x0) (k0_pay8 x3) p k).trans (Finset.sum_congr rfl fun e _ => ?_)
    rw [dropQ_apply, dropK8_apply]
  · refine (qk_apply (k0_pay6 x1) (k0_pay7 x2) p k).trans (Finset.sum_congr rfl fun e _ => ?_)
    rw [dropQ'_apply, dropK7_apply]

/-! ## Row reductions, and a column of row values spread back over the row -/

/-- The index of a [256, 4096] block over row `p` with key coordinate `k` inserted is `(p, k)`. -/
theorem lift_row (h : S256x4096.Reduces [1] S256) (p : Fin 256) (k : Fin 4096) : h.lift (ix1 p) k = ix2 p k :=
  funext fun c => Fin.ext (by
    match c with
    | ⟨0, _⟩ => rfl
    | ⟨1, _⟩ => rfl)

/-- The sum along the key axis, at row `p`. -/
theorem rowSum_apply (s : FVec Ideal S256x4096 .f32) (h : S256x4096.Reduces [1] S256) (hφ : FKind.Formats .f32)
    (hacc : (0x00000000#32 : BitVec 32) = FKind.add.neutral .f32 hφ) (p : Fin 256) :
    multiReduction (F := Ideal) .add [1] S256 s 0x00000000#32 h hφ hacc (ix1 p) = ∑ k : Fin 4096, s (ix2 p k) := by
  refine (Ideal.multiReduction_add_single s 0x00000000#32 h hφ hacc (ix1 p)).trans ?_
  show ∑ k : Fin 4096, s (h.lift (ix1 p) k) = _
  exact Finset.sum_congr rfl fun k _ => congrArg s (lift_row h p k)

/-- The maximum along the key axis started from −∞, at row `p`. -/
theorem rowMaxFold_apply (s : FVec Ideal S256x4096 .f32) (h : S256x4096.Reduces [1] S256) (hφ : FKind.Formats .f32)
    (hacc : (0xFF800000#32 : BitVec 32) = FKind.maximumf.neutral .f32 hφ) (p : Fin 256) :
    multiReduction (F := Ideal) .maximumf [1] S256 s 0xFF800000#32 h hφ hacc (ix1 p)
      = (Finset.univ : Finset (Fin 4096)).fold max negInf (fun k => s (ix2 p k)) := by
  refine (Ideal.multiReduction_maximumf_single s 0xFF800000#32 h hφ hacc (ix1 p)).trans ?_
  show (Finset.univ : Finset (Fin 4096)).fold max negInf (fun k => s (h.lift (ix1 p) k)) = _
  exact congrArg ((Finset.univ : Finset (Fin 4096)).fold max negInf) (funext fun k => congrArg s (lift_row h p k))

/-- A vector of 256 row values written as a column reads, at `(p, 0)`, the vector at `p`. -/
theorem column_apply {α : Type} (v : S256.Idx → α) (h : S256.ShapeCasts S256x1) (p : Fin 256) (u : Fin 1) :
    shapeCast S256x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column of row values spread over the 4096 keys reads, at `(p, k)`, the column at `(p, 0)`. -/
theorem spread_apply {α : Type} (v : S256x1.Idx → α) (h : S256x1.Broadcasts S256x4096) (p : Fin 256) (k : Fin 4096) :
    broadcastTo S256x4096 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-! ## The row maxima -/

/-- A scalar constant given by its f32 pattern is the extended real the pattern denotes. -/
theorem scalar_ofBits (b : BitVec 32) : Scalar.ofBits (F := Ideal) .f32 b = Ideal.ofBits .f32 b := rfl

/-- The column of row maxima of a score block: the maximum along the key axis from −∞, compared once more with −∞. -/
abbrev rowMaxCol (s : FVec Ideal S256x4096 .f32) : FVec Ideal S256x1 .f32 :=
  shapeCast S256x1
    (maximumf (broadcast S256 (Scalar.ofBits (F := Ideal) .f32 0xFF800000#32))
      (multiReduction (F := Ideal) .maximumf [1] S256 s 0xFF800000#32 Facts₀.reduces_S256x4096_S256 (.inl rfl) rfl))
    Facts₀.shapeCasts_S256_S256x1

/-- At `(p, 0)` it is the row maximum of row `p`. -/
theorem rowMaxCol_apply (s : FVec Ideal S256x4096 .f32) (p : Fin 256) (u : Fin 1) :
    rowMaxCol s (ix2 p u) = rowMax (fun k => s (ix2 p k)) := by
  refine (column_apply _ Facts₀.shapeCasts_S256_S256x1 p u).trans ?_
  refine (maximumf_apply _ _ (ix1 p)).trans ?_
  unfold rowMax
  refine congrArg₂ max ?_ (rowMaxFold_apply s Facts₀.reduces_S256x4096_S256 (.inl rfl) rfl p)
  exact scalar_ofBits 0xFF800000#32

/-- The column of row maxima of the real scores. -/
theorem pay13_eq (x0 x1 : Vec Ideal S1x256x64 .f32) (x2 x3 : Vec Ideal S1x4096x64 .f32) :
    k0_pay13 (F := Ideal) x0 x1 x2 x3 = rowMaxCol (k0_pay11 x0 x1 x2 x3) := rfl

/-- The second weight block takes its own row maxima first, and is then the same arithmetic. -/
theorem pay2_eq (s : FVec Ideal S256x4096 .f32) : k0_pay2 (F := Ideal) s = k0_pay1 s (rowMaxCol s) := rfl

/-! ## The softmax weights -/

/-- Given the column of row maxima of a score block, the weight block at row `p` and key `k` is the softmax weight
    of key `k` in row `p`: the exponentials of the scores less the row maximum, over their sum along the row. -/
theorem weights_apply (s : FVec Ideal S256x4096 .f32) (m : FVec Ideal S256x1 .f32) (p : Fin 256)
    (hm : m (ix2 p (0 : Fin 1)) = rowMax (fun k => s (ix2 p k))) (k : Fin 4096) :
    k0_pay1 (F := Ideal) s m (ix2 p k) = rowSoftmax (fun k => s (ix2 p k)) k := by
  have hE : ∀ k' : Fin 4096, exp (subf s (broadcastTo S256x4096 m Facts₀.broadcasts_S256x1_S256x4096)) (ix2 p k')
      = rowExp (fun k => s (ix2 p k)) k' := fun k' => by
    show Ideal.exp (s (ix2 p k') - broadcastTo S256x4096 m Facts₀.broadcasts_S256x1_S256x4096 (ix2 p k'))
      = Ideal.exp (s (ix2 p k') - rowMax (fun k => s (ix2 p k)))
    rw [spread_apply, hm]
  unfold rowSoftmax
  show Ideal.div (exp (subf s (broadcastTo S256x4096 m Facts₀.broadcasts_S256x1_S256x4096)) (ix2 p k))
      (broadcastTo S256x4096
        (shapeCast S256x1
          (multiReduction (F := Ideal) .add [1] S256 (exp (subf s (broadcastTo S256x4096 m Facts₀.broadcasts_S256x1_S256x4096)))
            0x00000000#32 Facts₀.reduces_S256x4096_S256 (.inl rfl) rfl)
          Facts₀.shapeCasts_S256_S256x1)
        Facts₀.broadcasts_S256x1_S256x4096 (ix2 p k)) = _
  refine congrArg₂ Ideal.div (hE k) ?_
  exact (spread_apply _ Facts₀.broadcasts_S256x1_S256x4096 p k).trans
    ((column_apply _ Facts₀.shapeCasts_S256_S256x1 p (0 : Fin 1)).trans
      ((rowSum_apply _ Facts₀.reduces_S256x4096_S256 (.inl rfl) rfl p).trans (Finset.sum_congr rfl fun k' _ => hE k')))

theorem weights'_apply (s : FVec Ideal S256x4096 .f32) (p : Fin 256) (k : Fin 4096) :
    k0_pay2 (F := Ideal) s (ix2 p k) = rowSoftmax (fun k => s (ix2 p k)) k := by
  rw [pay2_eq]
  exact weights_apply s (rowMaxCol s) p (rowMaxCol_apply s p 0) k

/-! ## The two stored blocks -/

/-- The first stored block at `(0, p, d)`, over any value blocks, score blocks and column of row maxima of the first
    score block: the first weights against the first values less the second weights against the second values. -/
theorem storeRe_apply (v14 v17 : FVec Ideal S4096x64 .bf16) (v24 v27 : FVec Ideal S256x4096 .f32) (v31 : FVec Ideal S256x1 .f32)
    (p : Fin 256) (hm : v31 (ix2 p (0 : Fin 1)) = rowMax (fun k => v24 (ix2 p k))) (d : Fin 64) :
    k0_pay3 (F := Ideal) v14 v17 v24 v27 v31 (ix3 (0 : Fin 1) p d)
      = (∑ k : Fin 4096, rowSoftmax (fun k => v24 (ix2 p k)) k * v14 (ix2 k d))
        - (∑ k : Fin 4096, rowSoftmax (fun k => v27 (ix2 p k)) k * v17 (ix2 k d)) := by
  show shapeCast S1x256x64
      (subf
        (matmul dot_S256x4096_S4096x64_S256x64_1_0_0_1_n_n none (k0_pay1 v24 v31) v14 (constant S256x64 .f32 0x00000000#32))
        (matmul dot_S256x4096_S4096x64_S256x64_1_0_0_1_n_n none (k0_pay2 v27) v17 (constant S256x64 .f32 0x00000000#32)))
      Facts₀.shapeCasts_S256x64_S1x256x64 (ix3 (0 : Fin 1) p d) = _
  refine (shapeCast_ab_1ab_apply _ Facts₀.shapeCasts_S256x64_S1x256x64 (0 : Fin 1) p d).trans ?_
  show matmul dot_S256x4096_S4096x64_S256x64_1_0_0_1_n_n none (k0_pay1 v24 v31) v14 (constant S256x64 .f32 0x00000000#32) (ix2 p d)
      - matmul dot_S256x4096_S4096x64_S256x64_1_0_0_1_n_n none (k0_pay2 v27) v17 (constant S256x64 .f32 0x00000000#32) (ix2 p d) = _
  refine congrArg₂ (· - ·) ?_ ?_
  · refine (wv_apply (k0_pay1 v24 v31) v14 p d).trans (Finset.sum_congr rfl fun k _ => ?_)
    rw [weights_apply v24 v31 p hm k]
  · refine (wv_apply (k0_pay2 v27) v17 p d).trans (Finset.sum_congr rfl fun k _ => ?_)
    rw [weights'_apply v27 p k]

/-- The second stored block likewise: the first weights against the second values plus the second weights against the
    first values. -/
theorem storeIm_apply (v14 v17 : FVec Ideal S4096x64 .bf16) (v24 v27 : FVec Ideal S256x4096 .f32) (v31 : FVec Ideal S256x1 .f32)
    (p : Fin 256) (hm : v31 (ix2 p (0 : Fin 1)) = rowMax (fun k => v24 (ix2 p k))) (d : Fin 64) :
    k0_pay4 (F := Ideal) v14 v17 v24 v27 v31 (ix3 (0 : Fin 1) p d)
      = (∑ k : Fin 4096, rowSoftmax (fun k => v24 (ix2 p k)) k * v17 (ix2 k d))
        + (∑ k : Fin 4096, rowSoftmax (fun k => v27 (ix2 p k)) k * v14 (ix2 k d)) := by
  show shapeCast S1x256x64
      (addf
        (matmul dot_S256x4096_S4096x64_S256x64_1_0_0_1_n_n none (k0_pay1 v24 v31) v17 (constant S256x64 .f32 0x00000000#32))
        (matmul dot_S256x4096_S4096x64_S256x64_1_0_0_1_n_n none (k0_pay2 v27) v14 (constant S256x64 .f32 0x00000000#32)))
      Facts₀.shapeCasts_S256x64_S1x256x64 (ix3 (0 : Fin 1) p d) = _
  refine (shapeCast_ab_1ab_apply _ Facts₀.shapeCasts_S256x64_S1x256x64 (0 : Fin 1) p d).trans ?_
  show matmul dot_S256x4096_S4096x64_S256x64_1_0_0_1_n_n none (k0_pay1 v24 v31) v17 (constant S256x64 .f32 0x00000000#32) (ix2 p d)
      + matmul dot_S256x4096_S4096x64_S256x64_1_0_0_1_n_n none (k0_pay2 v27) v14 (constant S256x64 .f32 0x00000000#32) (ix2 p d) = _
  refine congrArg₂ (· + ·) ?_ ?_
  · refine (wv_apply (k0_pay1 v24 v31) v17 p d).trans (Finset.sum_congr rfl fun k _ => ?_)
    rw [weights_apply v24 v31 p hm k]
  · refine (wv_apply (k0_pay2 v27) v14 p d).trans (Finset.sum_congr rfl fun k _ => ?_)
    rw [weights'_apply v27 p k]

/-- Row `p` of the real score block is the real score row of query row `p`. -/
theorem scoreRe_row (x0 x1 : Vec Ideal S1x256x64 .f32) (x2 x3 : Vec Ideal S1x4096x64 .f32) (p : Fin 256) :
    (fun k : Fin 4096 => k0_pay11 (F := Ideal) x0 x1 x2 x3 (ix2 p k))
      = scoreRe (fun e => x0 (ix3 (0 : Fin 1) p e)) (fun e => x1 (ix3 (0 : Fin 1) p e))
          (fun k e => x2 (ix3 (0 : Fin 1) k e)) (fun k e => x3 (ix3 (0 : Fin 1) k e)) :=
  funext fun k => scoreRe_apply x0 x1 x2 x3 p k

/-- Row `p` of the imaginary score block is the imaginary score row of query row `p`. -/
theorem scoreIm_row (x0 x1 : Vec Ideal S1x256x64 .f32) (x2 x3 : Vec Ideal S1x4096x64 .f32) (p : Fin 256) :
    (fun k : Fin 4096 => k0_pay12 (F := Ideal) x0 x1 x2 x3 (ix2 p k))
      = scoreIm (fun e => x0 (ix3 (0 : Fin 1) p e)) (fun e => x1 (ix3 (0 : Fin 1) p e))
          (fun k e => x2 (ix3 (0 : Fin 1) k e)) (fun k e => x3 (ix3 (0 : Fin 1) k e)) :=
  funext fun k => scoreIm_apply x0 x1 x2 x3 p k

/-- The first stored block of a grid point, at row `p` and feature `d`, is the real part of the attention output of
    query row `p` against the batch's keys and values. -/
theorem pay3_apply (x0 x1 : Vec Ideal S1x256x64 .f32) (x2 x3 x4 x5 : Vec Ideal S1x4096x64 .f32) (p : Fin 256) (d : Fin 64) :
    k0_pay3 (F := Ideal) (k0_pay9 x4) (k0_pay10 x5) (k0_pay11 x0 x1 x2 x3) (k0_pay12 x0 x1 x2 x3) (k0_pay13 x0 x1 x2 x3)
        (ix3 (0 : Fin 1) p d)
      = outRe (fun e => x0 (ix3 (0 : Fin 1) p e)) (fun e => x1 (ix3 (0 : Fin 1) p e))
          (fun k e => x2 (ix3 (0 : Fin 1) k e)) (fun k e => x3 (ix3 (0 : Fin 1) k e))
          (fun k e => x4 (ix3 (0 : Fin 1) k e)) (fun k e => x5 (ix3 (0 : Fin 1) k e)) d := by
  refine (storeRe_apply (k0_pay9 x4) (k0_pay10 x5) (k0_pay11 x0 x1 x2 x3) (k0_pay12 x0 x1 x2 x3) (k0_pay13 x0 x1 x2 x3) p
    (rowMaxCol_apply (k0_pay11 x0 x1 x2 x3) p 0) d).trans ?_
  rw [scoreRe_row, scoreIm_row]
  unfold outRe
  refine congrArg₂ (· - ·) (Finset.sum_congr rfl fun k _ => ?_) (Finset.sum_congr rfl fun k _ => ?_)
  · rw [dropK9_apply]
  · rw [dropK10_apply]

/-- The second stored block likewise is the imaginary part. -/
theorem pay4_apply (x0 x1 : Vec Ideal S1x256x64 .f32) (x2 x3 x4 x5 : Vec Ideal S1x4096x64 .f32) (p : Fin 256) (d : Fin 64) :
    k0_pay4 (F := Ideal) (k0_pay9 x4) (k0_pay10 x5) (k0_pay11 x0 x1 x2 x3) (k0_pay12 x0 x1 x2 x3) (k0_pay13 x0 x1 x2 x3)
        (ix3 (0 : Fin 1) p d)
      = outIm (fun e => x0 (ix3 (0 : Fin 1) p e)) (fun e => x1 (ix3 (0 : Fin 1) p e))
          (fun k e => x2 (ix3 (0 : Fin 1) k e)) (fun k e => x3 (ix3 (0 : Fin 1) k e))
          (fun k e => x4 (ix3 (0 : Fin 1) k e)) (fun k e => x5 (ix3 (0 : Fin 1) k e)) d := by
  refine (storeIm_apply (k0_pay9 x4) (k0_pay10 x5) (k0_pay11 x0 x1 x2 x3) (k0_pay12 x0 x1 x2 x3) (k0_pay13 x0 x1 x2 x3) p
    (rowMaxCol_apply (k0_pay11 x0 x1 x2 x3) p 0) d).trans ?_
  rw [scoreRe_row, scoreIm_row]
  unfold outIm
  refine congrArg₂ (· + ·) (Finset.sum_congr rfl fun k _ => ?_) (Finset.sum_congr rfl fun k _ => ?_)
  · rw [dropK10_apply]
  · rw [dropK9_apply]

end Cert.KernelIdeal.AttnRow

end
-- ==== Proof.KernelValue.lean ====
/-
  What the kernel's program leaves in its result buffer, at the exact instance: the packed complex attention of its
  three arguments.

  The region runs over a grid of 4 × 16 points. At point (b, j) the body is handed rows 256·j … 256·j + 255 of batch
  b of the two query planes, and ALL 4096 rows of batch b of the key and value planes; it stores rows
  256·j … 256·j + 255 of batch b of the two output planes. So entry (p, d) of a stored block is the attention output
  of query row 256·j + p of batch b at feature d (the module that reads the body's arithmetic at one entry says so in
  terms of the loaded blocks; here the loaded blocks are identified with rows of the planes). The blocks written back
  tile each output plane — row r of batch b lies in the block of point (b, r / 256) — so after the region each output
  plane is one function of the six input planes. The host lines before the region cut the six planes out of the three
  packed arguments; the host lines after it pack the two output planes into the result.
-/
import proofs.«162952_j27736898798432_1_alg».proof.Proof.Gen.KernelIdeal.Frame
import proofs.«162952_j27736898798432_1_alg».proof.Proof.AttentionLayout
import proofs.«162952_j27736898798432_1_alg».proof.Proof.KernelRow
import Idealize.ShloMosaic.Lib.Pipeline.Value
import Idealize.ShloMosaic.Lib.ValueIdx
import Idealize.ShloMosaic.Lib.StableHlo.Run

set_option maxRecDepth 16384

noncomputable section

namespace Cert.KernelIdeal.AttnValue

open Cert.KernelIdeal Cert.KernelIdeal.Gen Cert.ComplexAttention Cert.KernelIdeal.AttnRow
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## A stored block's entries as attention outputs -/

/-- The body's accesses start at the origin of their buffers. -/
theorem hz3 : (![0, 0, 0] : Fin 3 → Nat) = fun _ => 0 := funext fun a => by fin_cases a <;> rfl

/-- A stored block's entry is the real attention output at the array position the block's row sits at, once the six
    loaded blocks are known to be the matching rows of the six planes. -/
theorem re_block_entry (Q0 Q1 K0 K1 W0 W1 : SPlane.Idx → EReal)
    (x0 x1 : Vec Ideal S1x256x64 .f32) (x2 x3 x4 x5 : Vec Ideal S1x4096x64 .f32)
    (b : Fin 4) (q : Fin 4096) (p : Fin 256) (d : Fin 64)
    (h0 : ∀ e : Fin 64, x0 (ix3 (0 : Fin 1) p e) = Q0 (ix3 b q e))
    (h1 : ∀ e : Fin 64, x1 (ix3 (0 : Fin 1) p e) = Q1 (ix3 b q e))
    (h2 : ∀ (k : Fin 4096) (e : Fin 64), x2 (ix3 (0 : Fin 1) k e) = K0 (ix3 b k e))
    (h3 : ∀ (k : Fin 4096) (e : Fin 64), x3 (ix3 (0 : Fin 1) k e) = K1 (ix3 b k e))
    (h4 : ∀ (k : Fin 4096) (e : Fin 64), x4 (ix3 (0 : Fin 1) k e) = W0 (ix3 b k e))
    (h5 : ∀ (k : Fin 4096) (e : Fin 64), x5 (ix3 (0 : Fin 1) k e) = W1 (ix3 b k e)) :
    k0_pay3 (F := Ideal) (k0_pay9 x4) (k0_pay10 x5) (k0_pay11 x0 x1 x2 x3) (k0_pay12 x0 x1 x2 x3) (k0_pay13 x0 x1 x2 x3) (ix3 (0 : Fin 1) p d)
      = attnRe Q0 Q1 K0 K1 W0 W1 (ix3 b q d) := by
  rw [pay3_apply, attnRe_ix3]
  unfold attnReAt
  rw [funext h0, funext h1, funext fun k => funext (h2 k), funext fun k => funext (h3 k),
    funext fun k => funext (h4 k), funext fun k => funext (h5 k)]

/-- The same at any index of the stored block. -/
theorem re_block_entry' (Q0 Q1 K0 K1 W0 W1 : SPlane.Idx → EReal)
    (x0 x1 : Vec Ideal S1x256x64 .f32) (x2 x3 x4 x5 : Vec Ideal S1x4096x64 .f32)
    (y : S1x256x64.Idx) (b : Fin 4) (q : Fin 4096)
    (h0 : ∀ e : Fin 64, x0 (ix3 (0 : Fin 1) (y 1) e) = Q0 (ix3 b q e))
    (h1 : ∀ e : Fin 64, x1 (ix3 (0 : Fin 1) (y 1) e) = Q1 (ix3 b q e))
    (h2 : ∀ (k : Fin 4096) (e : Fin 64), x2 (ix3 (0 : Fin 1) k e) = K0 (ix3 b k e))
    (h3 : ∀ (k : Fin 4096) (e : Fin 64), x3 (ix3 (0 : Fin 1) k e) = K1 (ix3 b k e))
    (h4 : ∀ (k : Fin 4096) (e : Fin 64), x4 (ix3 (0 : Fin 1) k e) = W0 (ix3 b k e))
    (h5 : ∀ (k : Fin 4096) (e : Fin 64), x5 (ix3 (0 : Fin 1) k e) = W1 (ix3 b k e)) :
    k0_pay3 (F := Ideal) (k0_pay9 x4) (k0_pay10 x5) (k0_pay11 x0 x1 x2 x3) (k0_pay12 x0 x1 x2 x3) (k0_pay13 x0 x1 x2 x3) y
      = attnRe Q0 Q1 K0 K1 W0 W1 (ix3 b q (y 2)) := by
  obtain ⟨y0, p, d, rfl⟩ : ∃ (y0 : Fin 1) (p : Fin 256) (d : Fin 64), y = ix3 y0 p d := ⟨y 0, y 1, y 2, eq_ix3 y⟩
  obtain rfl : y0 = 0 := Subsingleton.elim _ _
  exact re_block_entry Q0 Q1 K0 K1 W0 W1 x0 x1 x2 x3 x4 x5 b q p d h0 h1 h2 h3 h4 h5

/-- A stored block's entry is the imaginary attention output at the array position the block's row sits at, once the six
    loaded blocks are known to be the matching rows of the six planes. -/
theorem im_block_entry (Q0 Q1 K0 K1 W0 W1 : SPlane.Idx → EReal)
    (x0 x1 : Vec Ideal S1x256x64 .f32) (x2 x3 x4 x5 : Vec Ideal S1x4096x64 .f32)
    (b : Fin 4) (q : Fin 4096) (p : Fin 256) (d : Fin 64)
    (h0 : ∀ e : Fin 64, x0 (ix3 (0 : Fin 1) p e) = Q0 (ix3 b q e))
    (h1 : ∀ e : Fin 64, x1 (ix3 (0 : Fin 1) p e) = Q1 (ix3 b q e))
    (h2 : ∀ (k : Fin 4096) (e : Fin 64), x2 (ix3 (0 : Fin 1) k e) = K0 (ix3 b k e))
    (h3 : ∀ (k : Fin 4096) (e : Fin 64), x3 (ix3 (0 : Fin 1) k e) = K1 (ix3 b k e))
    (h4 : ∀ (k : Fin 4096) (e : Fin 64), x4 (ix3 (0 : Fin 1) k e) = W0 (ix3 b k e))
    (h5 : ∀ (k : Fin 4096) (e : Fin 64), x5 (ix3 (0 : Fin 1) k e) = W1 (ix3 b k e)) :
    k0_pay4 (F := Ideal) (k0_pay9 x4) (k0_pay10 x5) (k0_pay11 x0 x1 x2 x3) (k0_pay12 x0 x1 x2 x3) (k0_pay13 x0 x1 x2 x3) (ix3 (0 : Fin 1) p d)
      = attnIm Q0 Q1 K0 K1 W0 W1 (ix3 b q d) := by
  rw [pay4_apply, attnIm_ix3]
  unfold attnImAt
  rw [funext h0, funext h1, funext fun k => funext (h2 k), funext fun k => funext (h3 k),
    funext fun k => funext (h4 k), funext fun k => funext (h5 k)]

/-- The same at any index of the stored block. -/
theorem im_block_entry' (Q0 Q1 K0 K1 W0 W1 : SPlane.Idx → EReal)
    (x0 x1 : Vec Ideal S1x256x64 .f32) (x2 x3 x4 x5 : Vec Ideal S1x4096x64 .f32)
    (y : S1x256x64.Idx) (b : Fin 4) (q : Fin 4096)
    (h0 : ∀ e : Fin 64, x0 (ix3 (0 : Fin 1) (y 1) e) = Q0 (ix3 b q e))
    (h1 : ∀ e : Fin 64, x1 (ix3 (0 : Fin 1) (y 1) e) = Q1 (ix3 b q e))
    (h2 : ∀ (k : Fin 4096) (e : Fin 64), x2 (ix3 (0 : Fin 1) k e) = K0 (ix3 b k e))
    (h3 : ∀ (k : Fin 4096) (e : Fin 64), x3 (ix3 (0 : Fin 1) k e) = K1 (ix3 b k e))
    (h4 : ∀ (k : Fin 4096) (e : Fin 64), x4 (ix3 (0 : Fin 1) k e) = W0 (ix3 b k e))
    (h5 : ∀ (k : Fin 4096) (e : Fin 64), x5 (ix3 (0 : Fin 1) k e) = W1 (ix3 b k e)) :
    k0_pay4 (F := Ideal) (k0_pay9 x4) (k0_pay10 x5) (k0_pay11 x0 x1 x2 x3) (k0_pay12 x0 x1 x2 x3) (k0_pay13 x0 x1 x2 x3) y
      = attnIm Q0 Q1 K0 K1 W0 W1 (ix3 b q (y 2)) := by
  obtain ⟨y0, p, d, rfl⟩ : ∃ (y0 : Fin 1) (p : Fin 256) (d : Fin 64), y = ix3 y0 p d := ⟨y 0, y 1, y 2, eq_ix3 y⟩
  obtain rfl : y0 = 0 := Subsingleton.elim _ _
  exact im_block_entry Q0 Q1 K0 K1 W0 W1 x0 x1 x2 x3 x4 x5 b q p d h0 h1 h2 h3 h4 h5

/-! ## The windows' block indices over the grid -/

/-- The block indices, decided over the 64 grid points: the query windows and both output windows move together
    (batch, row tile, 0); the key and value windows follow the batch only. -/
theorem idx_facts : ∀ t : Fin cfg0.N,
    win0_6.index t (0 : Fin 3) ≤ 3 ∧ win0_6.index t (1 : Fin 3) ≤ 15 ∧ win0_6.index t (2 : Fin 3) = 0
    ∧ win0_7.index t (0 : Fin 3) = win0_6.index t (0 : Fin 3) ∧ win0_7.index t (1 : Fin 3) = win0_6.index t (1 : Fin 3) ∧ win0_7.index t (2 : Fin 3) = 0
    ∧ win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = win0_6.index t (1 : Fin 3) ∧ win0_1.index t (2 : Fin 3) = 0
    ∧ win0_2.index t (0 : Fin 3) = win0_6.index t (0 : Fin 3) ∧ win0_2.index t (1 : Fin 3) = 0 ∧ win0_2.index t (2 : Fin 3) = 0
    ∧ win0_3.index t (0 : Fin 3) = win0_6.index t (0 : Fin 3) ∧ win0_3.index t (1 : Fin 3) = 0 ∧ win0_3.index t (2 : Fin 3) = 0
    ∧ win0_4.index t (0 : Fin 3) = win0_6.index t (0 : Fin 3) ∧ win0_4.index t (1 : Fin 3) = 0 ∧ win0_4.index t (2 : Fin 3) = 0
    ∧ win0_5.index t (0 : Fin 3) = win0_6.index t (0 : Fin 3) ∧ win0_5.index t (1 : Fin 3) = 0 ∧ win0_5.index t (2 : Fin 3) = 0 :=
  (by decide +kernel : ∀ t : Fin grid0.N, _)

/-! ## What each point writes back -/

/-- What point `t` writes back through the real output's window is block `t` of the real attention plane of the
    six planes as the region finds them. -/
theorem flushed6_eq (c : Dev nD) (t : Fin cfg0.N) :
    (dats m 0 c).flushed 6 t = ((cfg0.win 6).blk t).view.read (Elt Ideal)
      (attnRe (V m c main_v1) (V m c main_v3) (V m c main_v5) (V m c main_v7) (V m c main_v9) (V m c main_v11)) := by
  show (cfg0.win 6).cut (grid0.coords t) ((dats m 0 c).after 6 t) = _
  rw [after0_6]
  unfold out0_6
  rw [View.canon_unit_zero hz3]
  simp only [View.ld_unit_zero (S := S1x256x64) hz3, View.ld_unit_zero (S := S1x4096x64) hz3]
  obtain ⟨f60, f61, f62, f70, f71, f72, f00, f01, f02, f10, f11, f12, f20, f21, f22, f30, f31, f32, f40, f41, f42, f50, f51, f52⟩ := idx_facts t
  funext y
  have hy0 : (y 0).val < 1 := (y 0).isLt
  have hy1 : (y 1).val < 256 := (y 1).isLt
  have hy2 : (y 2).val < 64 := (y 2).isLt
  have hb : win0_6.index t (0 : Fin 3) < 4 := by omega
  have hq : win0_6.index t (1 : Fin 3) * 256 + (y 1).val < 4096 := by omega
  show k0_pay3 (F := Ideal) (k0_pay9 (iblk m c 4 t)) (k0_pay10 (iblk m c 5 t))
        (k0_pay11 (iblk m c 0 t) (iblk m c 1 t) (iblk m c 2 t) (iblk m c 3 t))
        (k0_pay12 (iblk m c 0 t) (iblk m c 1 t) (iblk m c 2 t) (iblk m c 3 t))
        (k0_pay13 (iblk m c 0 t) (iblk m c 1 t) (iblk m c 2 t) (iblk m c 3 t)) y
      = attnRe (V m c main_v1) (V m c main_v3) (V m c main_v5) (V m c main_v7) (V m c main_v9) (V m c main_v11)
          (((cfg0.win 6).blk t).view.emb y)
  have hemb : ((cfg0.win 6).blk t).view.emb y
      = ix3 (⟨win0_6.index t (0 : Fin 3), hb⟩ : Fin 4) (⟨win0_6.index t (1 : Fin 3) * 256 + (y 1).val, hq⟩ : Fin 4096) (y 2) := by
    funext a; apply Fin.ext
    match a with
    | ⟨0, _⟩ => show win0_6.index t (0 : Fin 3) * 1 + 1 * (y 0).val = win0_6.index t (0 : Fin 3); omega
    | ⟨1, _⟩ => show win0_6.index t (1 : Fin 3) * 256 + 1 * (y 1).val = win0_6.index t (1 : Fin 3) * 256 + (y 1).val; omega
    | ⟨2, _⟩ => show win0_6.index t (2 : Fin 3) * 64 + 1 * (y 2).val = (y 2).val; omega
  rw [hemb]
  refine re_block_entry' (V m c main_v1) (V m c main_v3) (V m c main_v5) (V m c main_v7) (V m c main_v9) (V m c main_v11)
    (iblk m c 0 t) (iblk m c 1 t) (iblk m c 2 t) (iblk m c 3 t) (iblk m c 4 t) (iblk m c 5 t) y
    (⟨win0_6.index t (0 : Fin 3), hb⟩ : Fin 4) (⟨win0_6.index t (1 : Fin 3) * 256 + (y 1).val, hq⟩ : Fin 4096) ?_ ?_ ?_ ?_ ?_ ?_
  · intro e
    show V m c main_v1 (((cfg0.win 0).blk t).view.emb (ix3 (0 : Fin 1) (y 1) e)) = _
    refine congrArg (V m c main_v1) ?_
    funext a; apply Fin.ext
    match a with
    | ⟨0, _⟩ => show win0_0.index t (0 : Fin 3) * 1 + 1 * 0 = win0_6.index t (0 : Fin 3); omega
    | ⟨1, _⟩ => show win0_0.index t (1 : Fin 3) * 256 + 1 * (y 1).val = win0_6.index t (1 : Fin 3) * 256 + (y 1).val; omega
    | ⟨2, _⟩ => show win0_0.index t (2 : Fin 3) * 64 + 1 * e.val = e.val; omega
  · intro e
    show V m c main_v3 (((cfg0.win 1).blk t).view.emb (ix3 (0 : Fin 1) (y 1) e)) = _
    refine congrArg (V m c main_v3) ?_
    funext a; apply Fin.ext
    match a with
    | ⟨0, _⟩ => show win0_1.index t (0 : Fin 3) * 1 + 1 * 0 = win0_6.index t (0 : Fin 3); omega
    | ⟨1, _⟩ => show win0_1.index t (1 : Fin 3) * 256 + 1 * (y 1).val = win0_6.index t (1 : Fin 3) * 256 + (y 1).val; omega
    | ⟨2, _⟩ => show win0_1.index t (2 : Fin 3) * 64 + 1 * e.val = e.val; omega
  · intro k e
    show V m c main_v5 (((cfg0.win 2).blk t).view.emb (ix3 (0 : Fin 1) k e)) = _
    refine congrArg (V m c main_v5) ?_
    funext a; apply Fin.ext
    match a with
    | ⟨0, _⟩ => show win0_2.index t (0 : Fin 3) * 1 + 1 * 0 = win0_6.index t (0 : Fin 3); omega
    | ⟨1, _⟩ => show win0_2.index t (1 : Fin 3) * 4096 + 1 * k.val = k.val; omega
    | ⟨2, _⟩ => show win0_2.index t (2 : Fin 3) * 64 + 1 * e.val = e.val; omega
  · intro k e
    show V m c main_v7 (((cfg0.win 3).blk t).view.emb (ix3 (0 : Fin 1) k e)) = _
    refine congrArg (V m c main_v7) ?_
    funext a; apply Fin.ext
    match a with
    | ⟨0, _⟩ => show win0_3.index t (0 : Fin 3) * 1 + 1 * 0 = win0_6.index t (0 : Fin 3); omega
    | ⟨1, _⟩ => show win0_3.index t (1 : Fin 3) * 4096 + 1 * k.val = k.val; omega
    | ⟨2, _⟩ => show win0_3.index t (2 : Fin 3) * 64 + 1 * e.val = e.val; omega
  · intro k e
    show V m c main_v9 (((cfg0.win 4).blk t).view.emb (ix3 (0 : Fin 1) k e)) = _
    refine congrArg (V m c main_v9) ?_
    funext a; apply Fin.ext
    match a with
    | ⟨0, _⟩ => show win0_4.index t (0 : Fin 3) * 1 + 1 * 0 = win0_6.index t (0 : Fin 3); omega
    | ⟨1, _⟩ => show win0_4.index t (1 : Fin 3) * 4096 + 1 * k.val = k.val; omega
    | ⟨2, _⟩ => show win0_4.index t (2 : Fin 3) * 64 + 1 * e.val = e.val; omega
  · intro k e
    show V m c main_v11 (((cfg0.win 5).blk t).view.emb (ix3 (0 : Fin 1) k e)) = _
    refine congrArg (V m c main_v11) ?_
    funext a; apply Fin.ext
    match a with
    | ⟨0, _⟩ => show win0_5.index t (0 : Fin 3) * 1 + 1 * 0 = win0_6.index t (0 : Fin 3); omega
    | ⟨1, _⟩ => show win0_5.index t (1 : Fin 3) * 4096 + 1 * k.val = k.val; omega
    | ⟨2, _⟩ => show win0_5.index t (2 : Fin 3) * 64 + 1 * e.val = e.val; omega

/-- What point `t` writes back through the imaginary output's window is block `t` of the imaginary attention plane of the
    six planes as the region finds them. -/
theorem flushed7_eq (c : Dev nD) (t : Fin cfg0.N) :
    (dats m 0 c).flushed 7 t = ((cfg0.win 7).blk t).view.read (Elt Ideal)
      (attnIm (V m c main_v1) (V m c main_v3) (V m c main_v5) (V m c main_v7) (V m c main_v9) (V m c main_v11)) := by
  show (cfg0.win 7).cut (grid0.coords t) ((dats m 0 c).after 7 t) = _
  rw [after0_7]
  unfold out0_7
  rw [View.canon_unit_zero hz3]
  simp only [View.ld_unit_zero (S := S1x256x64) hz3, View.ld_unit_zero (S := S1x4096x64) hz3]
  obtain ⟨f60, f61, f62, f70, f71, f72, f00, f01, f02, f10, f11, f12, f20, f21, f22, f30, f31, f32, f40, f41, f42, f50, f51, f52⟩ := idx_facts t
  funext y
  have hy0 : (y 0).val < 1 := (y 0).isLt
  have hy1 : (y 1).val < 256 := (y 1).isLt
  have hy2 : (y 2).val < 64 := (y 2).isLt
  have hb : win0_6.index t (0 : Fin 3) < 4 := by omega
  have hq : win0_6.index t (1 : Fin 3) * 256 + (y 1).val < 4096 := by omega
  show k0_pay4 (F := Ideal) (k0_pay9 (iblk m c 4 t)) (k0_pay10 (iblk m c 5 t))
        (k0_pay11 (iblk m c 0 t) (iblk m c 1 t) (iblk m c 2 t) (iblk m c 3 t))
        (k0_pay12 (iblk m c 0 t) (iblk m c 1 t) (iblk m c 2 t) (iblk m c 3 t))
        (k0_pay13 (iblk m c 0 t) (iblk m c 1 t) (iblk m c 2 t) (iblk m c 3 t)) y
      = attnIm (V m c main_v1) (V m c main_v3) (V m c main_v5) (V m c main_v7) (V m c main_v9) (V m c main_v11)
          (((cfg0.win 7).blk t).view.emb y)
  have hemb : ((cfg0.win 7).blk t).view.emb y
      = ix3 (⟨win0_6.index t (0 : Fin 3), hb⟩ : Fin 4) (⟨win0_6.index t (1 : Fin 3) * 256 + (y 1).val, hq⟩ : Fin 4096) (y 2) := by
    funext a; apply Fin.ext
    match a with
    | ⟨0, _⟩ => show win0_7.index t (0 : Fin 3) * 1 + 1 * (y 0).val = win0_6.index t (0 : Fin 3); omega
    | ⟨1, _⟩ => show win0_7.index t (1 : Fin 3) * 256 + 1 * (y 1).val = win0_6.index t (1 : Fin 3) * 256 + (y 1).val; omega
    | ⟨2, _⟩ => show win0_7.index t (2 : Fin 3) * 64 + 1 * (y 2).val = (y 2).val; omega
  rw [hemb]
  refine im_block_entry' (V m c main_v1) (V m c main_v3) (V m c main_v5) (V m c main_v7) (V m c main_v9) (V m c main_v11)
    (iblk m c 0 t) (iblk m c 1 t) (iblk m c 2 t) (iblk m c 3 t) (iblk m c 4 t) (iblk m c 5 t) y
    (⟨win0_6.index t (0 : Fin 3), hb⟩ : Fin 4) (⟨win0_6.index t (1 : Fin 3) * 256 + (y 1).val, hq⟩ : Fin 4096) ?_ ?_ ?_ ?_ ?_ ?_
  · intro e
    show V m c main_v1 (((cfg0.win 0).blk t).view.emb (ix3 (0 : Fin 1) (y 1) e)) = _
    refine congrArg (V m c main_v1) ?_
    funext a; apply Fin.ext
    match a with
    | ⟨0, _⟩ => show win0_0.index t (0 : Fin 3) * 1 + 1 * 0 = win0_6.index t (0 : Fin 3); omega
    | ⟨1, _⟩ => show win0_0.index t (1 : Fin 3) * 256 + 1 * (y 1).val = win0_6.index t (1 : Fin 3) * 256 + (y 1).val; omega
    | ⟨2, _⟩ => show win0_0.index t (2 : Fin 3) * 64 + 1 * e.val = e.val; omega
  · intro e
    show V m c main_v3 (((cfg0.win 1).blk t).view.emb (ix3 (0 : Fin 1) (y 1) e)) = _
    refine congrArg (V m c main_v3) ?_
    funext a; apply Fin.ext
    match a with
    | ⟨0, _⟩ => show win0_1.index t (0 : Fin 3) * 1 + 1 * 0 = win0_6.index t (0 : Fin 3); omega
    | ⟨1, _⟩ => show win0_1.index t (1 : Fin 3) * 256 + 1 * (y 1).val = win0_6.index t (1 : Fin 3) * 256 + (y 1).val; omega
    | ⟨2, _⟩ => show win0_1.index t (2 : Fin 3) * 64 + 1 * e.val = e.val; omega
  · intro k e
    show V m c main_v5 (((cfg0.win 2).blk t).view.emb (ix3 (0 : Fin 1) k e)) = _
    refine congrArg (V m c main_v5) ?_
    funext a; apply Fin.ext
    match a with
    | ⟨0, _⟩ => show win0_2.index t (0 : Fin 3) * 1 + 1 * 0 = win0_6.index t (0 : Fin 3); omega
    | ⟨1, _⟩ => show win0_2.index t (1 : Fin 3) * 4096 + 1 * k.val = k.val; omega
    | ⟨2, _⟩ => show win0_2.index t (2 : Fin 3) * 64 + 1 * e.val = e.val; omega
  · intro k e
    show V m c main_v7 (((cfg0.win 3).blk t).view.emb (ix3 (0 : Fin 1) k e)) = _
    refine congrArg (V m c main_v7) ?_
    funext a; apply Fin.ext
    match a with
    | ⟨0, _⟩ => show win0_3.index t (0 : Fin 3) * 1 + 1 * 0 = win0_6.index t (0 : Fin 3); omega
    | ⟨1, _⟩ => show win0_3.index t (1 : Fin 3) * 4096 + 1 * k.val = k.val; omega
    | ⟨2, _⟩ => show win0_3.index t (2 : Fin 3) * 64 + 1 * e.val = e.val; omega
  · intro k e
    show V m c main_v9 (((cfg0.win 4).blk t).view.emb (ix3 (0 : Fin 1) k e)) = _
    refine congrArg (V m c main_v9) ?_
    funext a; apply Fin.ext
    match a with
    | ⟨0, _⟩ => show win0_4.index t (0 : Fin 3) * 1 + 1 * 0 = win0_6.index t (0 : Fin 3); omega
    | ⟨1, _⟩ => show win0_4.index t (1 : Fin 3) * 4096 + 1 * k.val = k.val; omega
    | ⟨2, _⟩ => show win0_4.index t (2 : Fin 3) * 64 + 1 * e.val = e.val; omega
  · intro k e
    show V m c main_v11 (((cfg0.win 5).blk t).view.emb (ix3 (0 : Fin 1) k e)) = _
    refine congrArg (V m c main_v11) ?_
    funext a; apply Fin.ext
    match a with
    | ⟨0, _⟩ => show win0_5.index t (0 : Fin 3) * 1 + 1 * 0 = win0_6.index t (0 : Fin 3); omega
    | ⟨1, _⟩ => show win0_5.index t (1 : Fin 3) * 4096 + 1 * k.val = k.val; omega
    | ⟨2, _⟩ => show win0_5.index t (2 : Fin 3) * 64 + 1 * e.val = e.val; omega

/-! ## The blocks cover the output planes -/

/-- An index of the real output plane is in point `t`'s block iff each coordinate is in the block's range. -/
theorem mem_blk6 (t : Fin cfg0.N) (i : S4x4096x64.Idx) :
    i ∈ ((cfg0.win 6).blk t).view.set ↔ ∀ a : Fin 3, win0_6.index t a * S1x256x64.size a ≤ (i a).val ∧ (i a).val < win0_6.index t a * S1x256x64.size a + S1x256x64.size a := by
  show i ∈ ((View.whole main_v12_0).slice (win0_6.rect t)).set ↔ _
  rw [View.set_slice_whole, Rect.mem_set_unit]
  exact Iff.rfl

/-- The same for the imaginary output plane. -/
theorem mem_blk7 (t : Fin cfg0.N) (i : S4x4096x64.Idx) :
    i ∈ ((cfg0.win 7).blk t).view.set ↔ ∀ a : Fin 3, win0_7.index t a * S1x256x64.size a ≤ (i a).val ∧ (i a).val < win0_7.index t a * S1x256x64.size a + S1x256x64.size a := by
  show i ∈ ((View.whole main_v12_1).slice (win0_7.rect t)).set ↔ _
  rw [View.set_slice_whole, Rect.mem_set_unit]
  exact Iff.rfl

/-- Every (batch, row tile) pair is some grid point's block index. -/
theorem idx_onto6 : ∀ (q0 : Fin 4) (q1 : Fin 16), ∃ t : Fin cfg0.N, win0_6.index t = ![q0.val, q1.val, 0] :=
  (by decide +kernel : ∀ (q0 : Fin 4) (q1 : Fin 16), ∃ t : Fin grid0.N, win0_6.index t = ![q0.val, q1.val, 0])

/-- The blocks written back cover the real output plane: row `r` of batch `b` is in the block of the point (b, r / 256). -/
theorem cover6 (i : S4x4096x64.Idx) : ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 64 := (i 2).isLt
  obtain ⟨t, ht⟩ := idx_onto6 ⟨(i 0).val, hi0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 64 ≤ (i 2).val ∧ (i 2).val < win0_6.index t (2 : Fin 3) * 64 + 64; omega

/-- And the imaginary output plane, whose window moves with the real one's. -/
theorem cover7 (i : S4x4096x64.Idx) : ∃ t : Fin cfg0.N, (cfg0.win 7).flush t = true ∧ i ∈ ((cfg0.win 7).blk t).view.set := by
  have hi0 : (i 0).val < 4 := (i 0).isLt
  have hi1 : (i 1).val < 4096 := (i 1).isLt
  have hi2 : (i 2).val < 64 := (i 2).isLt
  obtain ⟨t, ht⟩ := idx_onto6 ⟨(i 0).val, hi0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  obtain ⟨f60, f61, f62, f70, f71, f72, -⟩ := idx_facts t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 64 ≤ (i 2).val ∧ (i 2).val < win0_7.index t (2 : Fin 3) * 64 + 64; omega

/-! ## The output planes after the region -/

/-- The real output plane after the run, of the six planes as the region finds them. -/
theorem final6 (c : Dev nD) : (dats m 0 c).arrAt 6 cfg0.N
    = attnRe (V m c main_v1) (V m c main_v3) (V m c main_v5) (V m c main_v7) (V m c main_v9) (V m c main_v11) :=
  (dats m 0 c).arrAt_eq_of_cover 6 _ (fun t _ => flushed6_eq m c t) cover6

/-- The imaginary output plane after the run. -/
theorem final7 (c : Dev nD) : (dats m 0 c).arrAt 7 cfg0.N
    = attnIm (V m c main_v1) (V m c main_v3) (V m c main_v5) (V m c main_v7) (V m c main_v9) (V m c main_v11) :=
  (dats m 0 c).arrAt_eq_of_cover 7 _ (fun t _ => flushed7_eq m c t) cover7

/-! ## The host lines before the region: the six planes of the packed arguments -/

theorem V_main_v1 (c : Dev nD) : (V m c main_v1 : S4x4096x64.Idx → EReal) = planeRe (m ((c : Thread nD τ).loc main_arg0)) := by
  show StableHlo.after hostOps0 (fun b => m (c, b)) (Proc.devRef .tc main_v1) = _
  after_results
  rfl
theorem V_main_v3 (c : Dev nD) : (V m c main_v3 : S4x4096x64.Idx → EReal) = planeIm (m ((c : Thread nD τ).loc main_arg0)) := by
  show StableHlo.after hostOps0 (fun b => m (c, b)) (Proc.devRef .tc main_v3) = _
  after_results
  rfl
theorem V_main_v5 (c : Dev nD) : (V m c main_v5 : S4x4096x64.Idx → EReal) = planeRe (m ((c : Thread nD τ).loc main_arg1)) := by
  show StableHlo.after hostOps0 (fun b => m (c, b)) (Proc.devRef .tc main_v5) = _
  after_results
  rfl
theorem V_main_v7 (c : Dev nD) : (V m c main_v7 : S4x4096x64.Idx → EReal) = planeIm (m ((c : Thread nD τ).loc main_arg1)) := by
  show StableHlo.after hostOps0 (fun b => m (c, b)) (Proc.devRef .tc main_v7) = _
  after_results
  rfl
theorem V_main_v9 (c : Dev nD) : (V m c main_v9 : S4x4096x64.Idx → EReal) = planeRe (m ((c : Thread nD τ).loc main_arg2)) := by
  show StableHlo.after hostOps0 (fun b => m (c, b)) (Proc.devRef .tc main_v9) = _
  after_results
  rfl
theorem V_main_v11 (c : Dev nD) : (V m c main_v11 : S4x4096x64.Idx → EReal) = planeIm (m ((c : Thread nD τ).loc main_arg2)) := by
  show StableHlo.after hostOps0 (fun b => m (c, b)) (Proc.devRef .tc main_v11) = _
  after_results
  rfl

/-! ## The host lines after the region, and the run -/

/-- The real output plane where the lines after the region read it, as a function of the packed arguments. -/
theorem plane6 (c : Dev nD) :
    Pipeline.withArrays (cfgs 0).spec c (V0 m c) (fun w => (dats m 0 c).arrAt w (cfgs 0).N) (Proc.devRef .tc main_v12_0)
      = attnRe (planeRe (m ((c : Thread nD τ).loc main_arg0))) (planeIm (m ((c : Thread nD τ).loc main_arg0)))
          (planeRe (m ((c : Thread nD τ).loc main_arg1))) (planeIm (m ((c : Thread nD τ).loc main_arg1)))
          (planeRe (m ((c : Thread nD τ).loc main_arg2))) (planeIm (m ((c : Thread nD τ).loc main_arg2))) := by
  refine ((Pipeline.withArrays_arr spec0 launch0.win.arr_inj c (V0 m c) (fun w => (dats m 0 c).arrAt w cfg0.N) 6).trans (final6 m c)).trans ?_
  rw [V_main_v1, V_main_v3, V_main_v5, V_main_v7, V_main_v9, V_main_v11]

/-- The imaginary output plane likewise. -/
theorem plane7 (c : Dev nD) :
    Pipeline.withArrays (cfgs 0).spec c (V0 m c) (fun w => (dats m 0 c).arrAt w (cfgs 0).N) (Proc.devRef .tc main_v12_1)
      = attnIm (planeRe (m ((c : Thread nD τ).loc main_arg0))) (planeIm (m ((c : Thread nD τ).loc main_arg0)))
          (planeRe (m ((c : Thread nD τ).loc main_arg1))) (planeIm (m ((c : Thread nD τ).loc main_arg1)))
          (planeRe (m ((c : Thread nD τ).loc main_arg2))) (planeIm (m ((c : Thread nD τ).loc main_arg2))) := by
  refine ((Pipeline.withArrays_arr spec0 launch0.win.arr_inj c (V0 m c) (fun w => (dats m 0 c).arrAt w cfg0.N) 7).trans (final7 m c)).trans ?_
  rw [V_main_v1, V_main_v3, V_main_v5, V_main_v7, V_main_v9, V_main_v11]

/-- The packed result after the host lines that follow the region: the two output planes, each given a trailing unit
    axis, joined along it. -/
theorem result_eq (c : Dev nD) :
    Pipeline.afterTail₀ cfgs (dats m) 0 (V0 m) [hostOps1] c main_v15
      = attention (m ((c : Thread nD τ).loc main_arg0)) (m ((c : Thread nD τ).loc main_arg1)) (m ((c : Thread nD τ).loc main_arg2)) := by
  unfold Pipeline.afterTail₀
  show StableHlo.after hostOps1 _ (Proc.devRef .tc main_v15) = _
  after_results
  exact congrArg₂ (fun a b : FVec Ideal S4x4096x64 .f32 => concatenate S4x4096x64x2 3
      [⟨S4x4096x64x1, broadcastInDim S4x4096x64x1 ![0, 1, 2] bcast_S4x4096x64_S4x4096x64x1_0_1_2 a⟩,
        ⟨S4x4096x64x1, broadcastInDim S4x4096x64x1 ![0, 1, 2] bcast_S4x4096x64_S4x4096x64x1_0_1_2 b⟩]
      concatenates_S4x4096x64x1_S4x4096x64x1_S4x4096x64x2_d3) (plane6 m c) (plane7 m c)

/-- Every weakly fair execution of the kernel's program at the exact instance terminates with the result buffer at
    the packed complex attention of the three arguments, the arguments unchanged. -/
theorem run : θ_run (defs (F := Ideal)) (onTc (τ := τ) (main (F := Ideal))) ⟨m, fun _ => 0, ρ⟩ fun r => ∀ c : Dev nD,
      r.2.mem ((c.tc : Thread nD τ).loc main_v15)
        = attention (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.AttnValue

end
-- ==== Proof.ReferenceValue.lean ====
/-
  The reference program computes complex attention.

  The program is a straight line of 63 array operations. Read one operation at a time, each intermediate array is a
  function of the three packed arguments; this module identifies those functions, index by index, with the pieces of
  the specification: the six slices are the real and imaginary planes of the arguments; the four products of a query
  row with a key row, combined and scaled by 1/√64 = 1/8, are the real and imaginary scores; the reduction with
  `max` from −∞, compared once more with −∞, is the row maximum; exponential, sum from 0 and quotient give the softmax
  weights; the four products of weights with values, combined, are the two output planes; and the final join of the
  two planes along a new trailing axis is the packed output. All identities hold on the extended reals as they stand:
  no finiteness is needed, both sides being the same sums, maxima, exponentials and quotients.
-/
import proofs.«162952_j27736898798432_1_alg».proof.Proof.ReferenceRunP
import proofs.«162952_j27736898798432_1_alg».proof.Proof.AttentionLayout

noncomputable section

open scoped BigOperators

namespace Cert.ReferenceIdeal.AttnValue

open Cert.ReferenceIdeal Cert.ReferenceIdeal.Gen Cert.ReferenceIdeal.ReadP Cert.ComplexAttention
open Idealize.ShloMosaic Idealize.ShloMosaic.ValueIdx

/-! ## The six planes

A slice of width one along the last axis, then that axis dropped: the real (offset 0) or imaginary (offset 1) plane. -/

theorem v3_eq (x0 : FVec Ideal SPacked .f32) : val_main_v3 (F := Ideal) x0 = planeRe x0 := rfl
theorem v5_eq (x0 : FVec Ideal SPacked .f32) : val_main_v5 (F := Ideal) x0 = planeIm x0 := rfl
theorem v7_eq (x1 : FVec Ideal SPacked .f32) : val_main_v7 (F := Ideal) x1 = planeRe x1 := rfl
theorem v9_eq (x1 : FVec Ideal SPacked .f32) : val_main_v9 (F := Ideal) x1 = planeIm x1 := rfl
theorem v11_eq (x2 : FVec Ideal SPacked .f32) : val_main_v11 (F := Ideal) x2 = planeRe x2 := rfl
theorem v13_eq (x2 : FVec Ideal SPacked .f32) : val_main_v13 (F := Ideal) x2 = planeIm x2 := rfl

/-! ## The scores -/

/-- The row of real scores of query `q` of batch `b` against the 4096 keys of that batch. -/
def sRe (x0 x1 : FVec Ideal SPacked .f32) (b : Fin 4) (q : Fin 4096) : Fin 4096 → EReal :=
  scoreRe (fun e => planeRe x0 (ix3 b q e)) (fun e => planeIm x0 (ix3 b q e))
    (fun k e => planeRe x1 (ix3 b k e)) (fun k e => planeIm x1 (ix3 b k e))

/-- The row of imaginary scores likewise. -/
def sIm (x0 x1 : FVec Ideal SPacked .f32) (b : Fin 4) (q : Fin 4096) : Fin 4096 → EReal :=
  scoreIm (fun e => planeRe x0 (ix3 b q e)) (fun e => planeIm x0 (ix3 b q e))
    (fun k e => planeRe x1 (ix3 b k e)) (fun k e => planeIm x1 (ix3 b k e))

theorem lidx_v14 (b : Fin 4) (q k : Fin 4096) (e : Fin 64) : lidx_main_v14 (ix3 b q k) e = ix3 b q e := by
  funext a; match a with | ⟨0, _⟩ => rfl | ⟨1, _⟩ => rfl | ⟨2, _⟩ => rfl
theorem ridx_v14 (b : Fin 4) (q k : Fin 4096) (e : Fin 64) : ridx_main_v14 (ix3 b q k) e = ix3 b k e := by
  funext a; match a with | ⟨0, _⟩ => rfl | ⟨1, _⟩ => rfl | ⟨2, _⟩ => rfl
/-- One of the four products of a query row with a key row, summed over the 64 features. -/
theorem v14_at (x0 x1 : FVec Ideal SPacked .f32) (b : Fin 4) (q k : Fin 4096) :
    val_main_v14 (F := Ideal) x0 x1 (ix3 b q k) = ∑ e : Fin 64, planeRe x0 (ix3 b q e) * planeRe x1 (ix3 b k e) := by
  rw [val_main_v14_apply]
  refine Finset.sum_congr rfl fun e _ => ?_
  rw [lidx_v14, ridx_v14, v3_eq, v7_eq]

theorem lidx_v15 (b : Fin 4) (q k : Fin 4096) (e : Fin 64) : lidx_main_v15 (ix3 b q k) e = ix3 b q e := by
  funext a; match a with | ⟨0, _⟩ => rfl | ⟨1, _⟩ => rfl | ⟨2, _⟩ => rfl
theorem ridx_v15 (b : Fin 4) (q k : Fin 4096) (e : Fin 64) : ridx_main_v15 (ix3 b q k) e = ix3 b k e := by
  funext a; match a with | ⟨0, _⟩ => rfl | ⟨1, _⟩ => rfl | ⟨2, _⟩ => rfl
/-- One of the four products of a query row with a key row, summed over the 64 features. -/
theorem v15_at (x0 x1 : FVec Ideal SPacked .f32) (b : Fin 4) (q k : Fin 4096) :
    val_main_v15 (F := Ideal) x0 x1 (ix3 b q k) = ∑ e : Fin 64, planeIm x0 (ix3 b q e) * planeIm x1 (ix3 b k e) := by
  rw [val_main_v15_apply]
  refine Finset.sum_congr rfl fun e _ => ?_
  rw [lidx_v15, ridx_v15, v5_eq, v9_eq]

theorem lidx_v19 (b : Fin 4) (q k : Fin 4096) (e : Fin 64) : lidx_main_v19 (ix3 b q k) e = ix3 b q e := by
  funext a; match a with | ⟨0, _⟩ => rfl | ⟨1, _⟩ => rfl | ⟨2, _⟩ => rfl
theorem ridx_v19 (b : Fin 4) (q k : Fin 4096) (e : Fin 64) : ridx_main_v19 (ix3 b q k) e = ix3 b k e := by
  funext a; match a with | ⟨0, _⟩ => rfl | ⟨1, _⟩ => rfl | ⟨2, _⟩ => rfl
/-- One of the four products of a query row with a key row, summed over the 64 features. -/
theorem v19_at (x0 x1 : FVec Ideal SPacked .f32) (b : Fin 4) (q k : Fin 4096) :
    val_main_v19 (F := Ideal) x0 x1 (ix3 b q k) = ∑ e : Fin 64, planeRe x0 (ix3 b q e) * planeIm x1 (ix3 b k e) := by
  rw [val_main_v19_apply]
  refine Finset.sum_congr rfl fun e _ => ?_
  rw [lidx_v19, ridx_v19, v3_eq, v9_eq]

theorem lidx_v20 (b : Fin 4) (q k : Fin 4096) (e : Fin 64) : lidx_main_v20 (ix3 b q k) e = ix3 b q e := by
  funext a; match a with | ⟨0, _⟩ => rfl | ⟨1, _⟩ => rfl | ⟨2, _⟩ => rfl
theorem ridx_v20 (b : Fin 4) (q k : Fin 4096) (e : Fin 64) : ridx_main_v20 (ix3 b q k) e = ix3 b k e := by
  funext a; match a with | ⟨0, _⟩ => rfl | ⟨1, _⟩ => rfl | ⟨2, _⟩ => rfl
/-- One of the four products of a query row with a key row, summed over the 64 features. -/
theorem v20_at (x0 x1 : FVec Ideal SPacked .f32) (b : Fin 4) (q k : Fin 4096) :
    val_main_v20 (F := Ideal) x0 x1 (ix3 b q k) = ∑ e : Fin 64, planeIm x0 (ix3 b q e) * planeRe x1 (ix3 b k e) := by
  rw [val_main_v20_apply]
  refine Finset.sum_congr rfl fun e _ => ?_
  rw [lidx_v20, ridx_v20, v5_eq, v7_eq]

/-- The scale is a scalar spread over the whole array: 1 divided by the root of 64, which is 1/8. -/
theorem v17_at (i : S4x4096x4096.Idx) : val_main_v17 (F := Ideal) i = scale := by
  rw [val_main_v17_apply, val_main_v1_apply, val_main_cst_0_apply, val_main_v0_apply, val_main_cst_apply]
  exact one_div_sqrt_64

theorem v22_at (i : S4x4096x4096.Idx) : val_main_v22 (F := Ideal) i = scale := by
  rw [val_main_v22_apply, val_main_v1_apply, val_main_cst_0_apply, val_main_v0_apply, val_main_cst_apply]
  exact one_div_sqrt_64

/-- The real score: (qr·kr − qi·ki) / 8. -/
theorem v18_at (x0 x1 : FVec Ideal SPacked .f32) (b : Fin 4) (q k : Fin 4096) :
    val_main_v18 (F := Ideal) x0 x1 (ix3 b q k) = sRe x0 x1 b q k := by
  rw [val_main_v18_apply, val_main_v16_apply, v14_at, v15_at, v17_at]
  rfl

/-- The imaginary score: (qr·ki + qi·kr) / 8. -/
theorem v23_at (x0 x1 : FVec Ideal SPacked .f32) (b : Fin 4) (q k : Fin 4096) :
    val_main_v23 (F := Ideal) x0 x1 (ix3 b q k) = sIm x0 x1 b q k := by
  rw [val_main_v23_apply, val_main_v21_apply, v19_at, v20_at, v22_at]
  rfl

/-! ### The softmax of the real scores -/

theorem lift_v24 (h : S4x4096x4096.Reduces [2] S4x4096) (b : Fin 4) (q k : Fin 4096) : h.lift (ix2 b q) k = ix3 b q k := by
  funext a; apply Fin.ext; match a with | ⟨0, _⟩ => rfl | ⟨1, _⟩ => rfl | ⟨2, _⟩ => rfl

/-- The reduction over the key axis is the fold of `max` over the row of 4096 scores, from −∞. -/
theorem v24_at (x0 x1 : FVec Ideal SPacked .f32) (b : Fin 4) (q : Fin 4096) :
    val_main_v24 (F := Ideal) x0 x1 (ix2 b q) = (Finset.univ : Finset (Fin 4096)).fold max negInf (sRe x0 x1 b q) := by
  have h : S4x4096x4096.Reduces [2] S4x4096 := by decide
  refine (Host.reduce_eq_fold_single (max : EReal → EReal → EReal) (val_main_v18 (F := Ideal) x0 x1) (val_main_cst_1 (F := Ideal))
    reducesTo_S4x4096x4096_S4x4096_d2 h h_S_ (ix2 b q)).trans ?_
  show (Finset.univ : Finset (Fin 4096)).fold max negInf (fun k => val_main_v18 (F := Ideal) x0 x1 (h.lift (ix2 b q) k)) = _
  congr 1
  funext k
  exact (congrArg (val_main_v18 (F := Ideal) x0 x1) (lift_v24 h b q k)).trans (v18_at x0 x1 b q k)

/-- Compared once more with −∞: the row's maximum. -/
theorem v26_at (x0 x1 : FVec Ideal SPacked .f32) (b : Fin 4) (q : Fin 4096) :
    val_main_v26 (F := Ideal) x0 x1 (ix2 b q) = rowMax (sRe x0 x1 b q) := by
  rw [val_main_v26_apply, val_main_v25_apply, val_main_cst_2_apply, v24_at]
  rfl

theorem idx_v27_v28 (b : Fin 4) (q k : Fin 4096) : idx_main_v27 (idx_main_v28 (ix3 b q k)) = ix2 b q := by
  funext a; match a with | ⟨0, _⟩ => rfl | ⟨1, _⟩ => rfl

/-- The maximum, spread back over the key axis. -/
theorem v28_at (x0 x1 : FVec Ideal SPacked .f32) (b : Fin 4) (q k : Fin 4096) :
    val_main_v28 (F := Ideal) x0 x1 (ix3 b q k) = rowMax (sRe x0 x1 b q) := by
  rw [val_main_v28_apply, val_main_v27_apply, idx_v27_v28, v26_at]

/-- The exponential of a score less its row's maximum. -/
theorem v30_at (x0 x1 : FVec Ideal SPacked .f32) (b : Fin 4) (q k : Fin 4096) :
    val_main_v30 (F := Ideal) x0 x1 (ix3 b q k) = rowExp (sRe x0 x1 b q) k := by
  rw [val_main_v30_apply, val_main_v29_apply, v28_at, v18_at]
  rfl

theorem idx_v31 (b : Fin 4) (q k : Fin 4096) : idx_main_v31 (ix2 b q) k = ix3 b q k := by
  funext a; match a with | ⟨0, _⟩ => rfl | ⟨1, _⟩ => rfl | ⟨2, _⟩ => rfl

/-- The sum of the row's exponentials (the sum starts from 0). -/
theorem v31_at (x0 x1 : FVec Ideal SPacked .f32) (b : Fin 4) (q : Fin 4096) :
    val_main_v31 (F := Ideal) x0 x1 (ix2 b q) = ∑ k : Fin 4096, rowExp (sRe x0 x1 b q) k := by
  rw [val_main_v31_apply, val_main_cst_3_apply]
  show Ideal.ofBits .f32 0x00000000#32 + _ = _
  rw [Ideal.ofBits_zero_f32, zero_add]
  refine Finset.sum_congr rfl fun k _ => ?_
  rw [idx_v31, v30_at]

theorem idx_v32_v33 (b : Fin 4) (q k : Fin 4096) : idx_main_v32 (idx_main_v33 (ix3 b q k)) = ix2 b q := by
  funext a; match a with | ⟨0, _⟩ => rfl | ⟨1, _⟩ => rfl

/-- The quotient: the softmax weight of key `k`. -/
theorem v34_at (x0 x1 : FVec Ideal SPacked .f32) (b : Fin 4) (q k : Fin 4096) :
    val_main_v34 (F := Ideal) x0 x1 (ix3 b q k) = rowSoftmax (sRe x0 x1 b q) k := by
  rw [val_main_v34_apply, v30_at, val_main_v33_apply, val_main_v32_apply, idx_v32_v33, v31_at]
  rfl

/-! ### The softmax of the imaginary scores -/

theorem lift_v35 (h : S4x4096x4096.Reduces [2] S4x4096) (b : Fin 4) (q k : Fin 4096) : h.lift (ix2 b q) k = ix3 b q k := by
  funext a; apply Fin.ext; match a with | ⟨0, _⟩ => rfl | ⟨1, _⟩ => rfl | ⟨2, _⟩ => rfl

/-- The reduction over the key axis is the fold of `max` over the row of 4096 scores, from −∞. -/
theorem v35_at (x0 x1 : FVec Ideal SPacked .f32) (b : Fin 4) (q : Fin 4096) :
    val_main_v35 (F := Ideal) x0 x1 (ix2 b q) = (Finset.univ : Finset (Fin 4096)).fold max negInf (sIm x0 x1 b q) := by
  have h : S4x4096x4096.Reduces [2] S4x4096 := by decide
  refine (Host.reduce_eq_fold_single (max : EReal → EReal → EReal) (val_main_v23 (F := Ideal) x0 x1) (val_main_cst_4 (F := Ideal))
    reducesTo_S4x4096x4096_S4x4096_d2 h h_S_ (ix2 b q)).trans ?_
  show (Finset.univ : Finset (Fin 4096)).fold max negInf (fun k => val_main_v23 (F := Ideal) x0 x1 (h.lift (ix2 b q) k)) = _
  congr 1
  funext k
  exact (congrArg (val_main_v23 (F := Ideal) x0 x1) (lift_v35 h b q k)).trans (v23_at x0 x1 b q k)

/-- Compared once more with −∞: the row's maximum. -/
theorem v37_at (x0 x1 : FVec Ideal SPacked .f32) (b : Fin 4) (q : Fin 4096) :
    val_main_v37 (F := Ideal) x0 x1 (ix2 b q) = rowMax (sIm x0 x1 b q) := by
  rw [val_main_v37_apply, val_main_v36_apply, val_main_cst_5_apply, v35_at]
  rfl

theorem idx_v38_v39 (b : Fin 4) (q k : Fin 4096) : idx_main_v38 (idx_main_v39 (ix3 b q k)) = ix2 b q := by
  funext a; match a with | ⟨0, _⟩ => rfl | ⟨1, _⟩ => rfl

/-- The maximum, spread back over the key axis. -/
theorem v39_at (x0 x1 : FVec Ideal SPacked .f32) (b : Fin 4) (q k : Fin 4096) :
    val_main_v39 (F := Ideal) x0 x1 (ix3 b q k) = rowMax (sIm x0 x1 b q) := by
  rw [val_main_v39_apply, val_main_v38_apply, idx_v38_v39, v37_at]

/-- The exponential of a score less its row's maximum. -/
theorem v41_at (x0 x1 : FVec Ideal SPacked .f32) (b : Fin 4) (q k : Fin 4096) :
    val_main_v41 (F := Ideal) x0 x1 (ix3 b q k) = rowExp (sIm x0 x1 b q) k := by
  rw [val_main_v41_apply, val_main_v40_apply, v39_at, v23_at]
  rfl

theorem idx_v42 (b : Fin 4) (q k : Fin 4096) : idx_main_v42 (ix2 b q) k = ix3 b q k := by
  funext a; match a with | ⟨0, _⟩ => rfl | ⟨1, _⟩ => rfl | ⟨2, _⟩ => rfl

/-- The sum of the row's exponentials (the sum starts from 0). -/
theorem v42_at (x0 x1 : FVec Ideal SPacked .f32) (b : Fin 4) (q : Fin 4096) :
    val_main_v42 (F := Ideal) x0 x1 (ix2 b q) = ∑ k : Fin 4096, rowExp (sIm x0 x1 b q) k := by
  rw [val_main_v42_apply, val_main_cst_6_apply]
  show Ideal.ofBits .f32 0x00000000#32 + _ = _
  rw [Ideal.ofBits_zero_f32, zero_add]
  refine Finset.sum_congr rfl fun k _ => ?_
  rw [idx_v42, v41_at]

theorem idx_v43_v44 (b : Fin 4) (q k : Fin 4096) : idx_main_v43 (idx_main_v44 (ix3 b q k)) = ix2 b q := by
  funext a; match a with | ⟨0, _⟩ => rfl | ⟨1, _⟩ => rfl

/-- The quotient: the softmax weight of key `k`. -/
theorem v45_at (x0 x1 : FVec Ideal SPacked .f32) (b : Fin 4) (q k : Fin 4096) :
    val_main_v45 (F := Ideal) x0 x1 (ix3 b q k) = rowSoftmax (sIm x0 x1 b q) k := by
  rw [val_main_v45_apply, v41_at, val_main_v44_apply, val_main_v43_apply, idx_v43_v44, v42_at]
  rfl

/-! ## The outputs -/

theorem lidx_v46 (b : Fin 4) (q k : Fin 4096) (d : Fin 64) : lidx_main_v46 (ix3 b q d) k = ix3 b q k := by
  funext a; match a with | ⟨0, _⟩ => rfl | ⟨1, _⟩ => rfl | ⟨2, _⟩ => rfl
theorem ridx_v46 (b : Fin 4) (q k : Fin 4096) (d : Fin 64) : ridx_main_v46 (ix3 b q d) k = ix3 b k d := by
  funext a; match a with | ⟨0, _⟩ => rfl | ⟨1, _⟩ => rfl | ⟨2, _⟩ => rfl
/-- One of the four products of a row of weights with a column of values, summed over the 4096 keys. -/
theorem v46_at (x0 x1 x2 : FVec Ideal SPacked .f32) (b : Fin 4) (q : Fin 4096) (d : Fin 64) :
    val_main_v46 (F := Ideal) x0 x1 x2 (ix3 b q d) = ∑ k : Fin 4096, rowSoftmax (sRe x0 x1 b q) k * planeRe x2 (ix3 b k d) := by
  rw [val_main_v46_apply]
  refine Finset.sum_congr rfl fun k _ => ?_
  rw [lidx_v46, ridx_v46, v34_at, v11_eq]

theorem lidx_v47 (b : Fin 4) (q k : Fin 4096) (d : Fin 64) : lidx_main_v47 (ix3 b q d) k = ix3 b q k := by
  funext a; match a with | ⟨0, _⟩ => rfl | ⟨1, _⟩ => rfl | ⟨2, _⟩ => rfl
theorem ridx_v47 (b : Fin 4) (q k : Fin 4096) (d : Fin 64) : ridx_main_v47 (ix3 b q d) k = ix3 b k d := by
  funext a; match a with | ⟨0, _⟩ => rfl | ⟨1, _⟩ => rfl | ⟨2, _⟩ => rfl
/-- One of the four products of a row of weights with a column of values, summed over the 4096 keys. -/
theorem v47_at (x0 x1 x2 : FVec Ideal SPacked .f32) (b : Fin 4) (q : Fin 4096) (d : Fin 64) :
    val_main_v47 (F := Ideal) x0 x1 x2 (ix3 b q d) = ∑ k : Fin 4096, rowSoftmax (sIm x0 x1 b q) k * planeIm x2 (ix3 b k d) := by
  rw [val_main_v47_apply]
  refine Finset.sum_congr rfl fun k _ => ?_
  rw [lidx_v47, ridx_v47, v45_at, v13_eq]

theorem lidx_v49 (b : Fin 4) (q k : Fin 4096) (d : Fin 64) : lidx_main_v49 (ix3 b q d) k = ix3 b q k := by
  funext a; match a with | ⟨0, _⟩ => rfl | ⟨1, _⟩ => rfl | ⟨2, _⟩ => rfl
theorem ridx_v49 (b : Fin 4) (q k : Fin 4096) (d : Fin 64) : ridx_main_v49 (ix3 b q d) k = ix3 b k d := by
  funext a; match a with | ⟨0, _⟩ => rfl | ⟨1, _⟩ => rfl | ⟨2, _⟩ => rfl
/-- One of the four products of a row of weights with a column of values, summed over the 4096 keys. -/
theorem v49_at (x0 x1 x2 : FVec Ideal SPacked .f32) (b : Fin 4) (q : Fin 4096) (d : Fin 64) :
    val_main_v49 (F := Ideal) x0 x1 x2 (ix3 b q d) = ∑ k : Fin 4096, rowSoftmax (sRe x0 x1 b q) k * planeIm x2 (ix3 b k d) := by
  rw [val_main_v49_apply]
  refine Finset.sum_congr rfl fun k _ => ?_
  rw [lidx_v49, ridx_v49, v34_at, v13_eq]

theorem lidx_v50 (b : Fin 4) (q k : Fin 4096) (d : Fin 64) : lidx_main_v50 (ix3 b q d) k = ix3 b q k := by
  funext a; match a with | ⟨0, _⟩ => rfl | ⟨1, _⟩ => rfl | ⟨2, _⟩ => rfl
theorem ridx_v50 (b : Fin 4) (q k : Fin 4096) (d : Fin 64) : ridx_main_v50 (ix3 b q d) k = ix3 b k d := by
  funext a; match a with | ⟨0, _⟩ => rfl | ⟨1, _⟩ => rfl | ⟨2, _⟩ => rfl
/-- One of the four products of a row of weights with a column of values, summed over the 4096 keys. -/
theorem v50_at (x0 x1 x2 : FVec Ideal SPacked .f32) (b : Fin 4) (q : Fin 4096) (d : Fin 64) :
    val_main_v50 (F := Ideal) x0 x1 x2 (ix3 b q d) = ∑ k : Fin 4096, rowSoftmax (sIm x0 x1 b q) k * planeRe x2 (ix3 b k d) := by
  rw [val_main_v50_apply]
  refine Finset.sum_congr rfl fun k _ => ?_
  rw [lidx_v50, ridx_v50, v45_at, v11_eq]

/-- The real output plane at an index: ar·vr − ai·vi. -/
theorem v48_at (x0 x1 x2 : FVec Ideal SPacked .f32) (b : Fin 4) (q : Fin 4096) (d : Fin 64) :
    val_main_v48 (F := Ideal) x0 x1 x2 (ix3 b q d) = attnReAt (planeRe x0) (planeIm x0) (planeRe x1) (planeIm x1) (planeRe x2) (planeIm x2) b q d := by
  rw [val_main_v48_apply, v46_at, v47_at]
  rfl

/-- The imaginary output plane at an index: ar·vi + ai·vr. -/
theorem v51_at (x0 x1 x2 : FVec Ideal SPacked .f32) (b : Fin 4) (q : Fin 4096) (d : Fin 64) :
    val_main_v51 (F := Ideal) x0 x1 x2 (ix3 b q d) = attnImAt (planeRe x0) (planeIm x0) (planeRe x1) (planeIm x1) (planeRe x2) (planeIm x2) b q d := by
  rw [val_main_v51_apply, v49_at, v50_at]
  rfl

/-- The real output plane, whole. -/
theorem v48_eq (x0 x1 x2 : FVec Ideal SPacked .f32) : val_main_v48 (F := Ideal) x0 x1 x2 = attnRe (planeRe x0) (planeIm x0) (planeRe x1) (planeIm x1) (planeRe x2) (planeIm x2) := by
  funext i
  obtain ⟨b, q, d, rfl⟩ : ∃ (b : Fin 4) (q : Fin 4096) (d : Fin 64), i = ix3 b q d := ⟨i 0, i 1, i 2, eq_ix3 i⟩
  rw [attnRe_ix3]
  exact v48_at x0 x1 x2 b q d

/-- The imaginary output plane, whole. -/
theorem v51_eq (x0 x1 x2 : FVec Ideal SPacked .f32) : val_main_v51 (F := Ideal) x0 x1 x2 = attnIm (planeRe x0) (planeIm x0) (planeRe x1) (planeIm x1) (planeRe x2) (planeIm x2) := by
  funext i
  obtain ⟨b, q, d, rfl⟩ : ∃ (b : Fin 4) (q : Fin 4096) (d : Fin 64), i = ix3 b q d := ⟨i 0, i 1, i 2, eq_ix3 i⟩
  rw [attnIm_ix3]
  exact v51_at x0 x1 x2 b q d

/-- The program's result: the two planes, each given a trailing unit axis, joined along it. -/
theorem v54_eq (x0 x1 x2 : FVec Ideal SPacked .f32) : val_main_v54 (F := Ideal) x0 x1 x2 = attention x0 x1 x2 := by
  show joinPlanes (val_main_v48 (F := Ideal) x0 x1 x2) (val_main_v51 (F := Ideal) x0 x1 x2) = _
  rw [v48_eq, v51_eq]
  rfl

/-! ## The run -/

open Idealize.ShloMosaic.TcCoe Idealize.SL.Sem

/-- On every device, from any memory with zero counters: every weakly fair execution of the reference program
    terminates with the result buffer holding the complex attention of the three arguments' launch contents, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v54)
        = attention (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (v54_eq _ _ _), (h c).2⟩) (Cert.ReferenceIdeal.ValueP.run (F := Ideal) m ρ)

end Cert.ReferenceIdeal.AttnValue

end
-- ==== Proof.lean ====
/-
  The certificate: the fused complex dot-product attention kernel against its plain reference.

  Both programs, read at the exact instance, leave in their result buffer the same function of the three packed
  arguments — complex attention (one query row at a time: scaled complex scores against all keys of the batch, a
  softmax of the real and of the imaginary score row, the complex product with the values). The kernel's program
  tiles the query rows over a grid and writes the scale as the literal 1/8; the reference computes 1/√64, which on
  the extended reals is exactly 1/8. Nothing else differs but format changes, the order of sums and the tiling, none
  of which the extended reals see, so the precondition is never opened.

  The three frames: the kernel's two programs by their generated frame certificates, the reference's by its run with
  the result dropped. No operation of the kernel was rewritten for the exact reading, so there is nothing to preserve.
-/
import proofs.«162952_j27736898798432_1_alg».proof.Defs
import proofs.«162952_j27736898798432_1_alg».proof.Proof.Gen.Kernel
import proofs.«162952_j27736898798432_1_alg».proof.Proof.Gen.Kernel.Frame
import proofs.«162952_j27736898798432_1_alg».proof.Proof.Gen.KernelIdeal
import proofs.«162952_j27736898798432_1_alg».proof.Proof.Gen.KernelIdeal.Frame
import proofs.«162952_j27736898798432_1_alg».proof.Proof.Gen.ReferenceIdeal
import proofs.«162952_j27736898798432_1_alg».proof.Proof.Gen.Pre_finite_inputs
import proofs.«162952_j27736898798432_1_alg».proof.Proof.AttentionLayout
import proofs.«162952_j27736898798432_1_alg».proof.Proof.KernelValue
import proofs.«162952_j27736898798432_1_alg».proof.Proof.ReferenceValue
import Idealize.ShloMosaic.Adequacy
import Idealize.ShloMosaic.Init

noncomputable section

namespace Cert.Proof

open Idealize.ShloMosaic Idealize.SL.Sem Cert.ComplexAttention

/-- The word-level kernel runs and leaves its arguments alone. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.AttnValue.run m ρ)

/-- From memories agreeing on the arguments both programs end with the packed complex attention of the arguments in
    their result buffers: the same array, entry by entry. -/
theorem algebraic : Cert.algebraic_KernelIdeal_ReferenceIdeal := by
  intro m ρ m' ρ' _ hagree
  refine ⟨fun c => attention (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.AttnValue.run m ρ, ?_⟩
  refine (θ_run Cert.ReferenceIdeal.defs _ _).mono (fun _ h c => ⟨(h c).1.trans ?_, (h c).2⟩)
    (Cert.ReferenceIdeal.AttnValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
